-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S64x128 : Shape := ⟨2, ![64, 128]⟩
abbrev S64 : Shape := ⟨1, ![64]⟩
abbrev S192x64 : Shape := ⟨2, ![192, 64]⟩
abbrev S192 : Shape := ⟨1, ![192]⟩
abbrev S50000x64 : Shape := ⟨2, ![50000, 64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S192x64 : S_.BroadcastsInDim S192x64 (![] : Fin 0 → Fin S192x64.rank)
  reducesTo_S192x64_S_d0_1 : S192x64.ReducesTo [0, 1] S_
  bcast_S_S192 : S_.BroadcastsInDim S192 (![] : Fin 0 → Fin S192.rank)
  reducesTo_S192_S_d0 : S192.ReducesTo [0] S_
  bcast_S_S50000x64 : S_.BroadcastsInDim S50000x64 (![] : Fin 0 → Fin S50000x64.rank)
  reducesTo_S50000x64_S_d0_1 : S50000x64.ReducesTo [0, 1] S_

variable [Facts]

def fn_part2 {F : FTy → Type} [FloatOps F] (main_arg8 : FVec F S192 .f32) (main_arg9 : FVec F S50000x64 .f32) (main_v33 : IVec S_ 1) : IVec S_ 1 :=
  let main_v34 : FVec F S192 .f32 := Host.absf main_arg8
  let main_cst_12 : FVec F S_ .f32 := constant S_ .f32 0x7F800000#32
  let main_v35 : FVec F S192 .f32 := broadcastInDim S192 ![] bcast_S_S192 main_cst_12
  let main_v36 : IVec S192 1 := cmpf .olt main_v34 main_v35
  let main_c_13 : IVec S_ 1 := constantI S_ 1 1#1
  let main_v37 : IVec S_ 1 := (fun x v => Host.reduce IntOp.andi x v reducesTo_S192_S_d0 h_S_) main_v36 main_c_13
  let main_v38 : IVec S_ 1 := andi main_v33 main_v37
  let main_v39 : FVec F S50000x64 .f32 := Host.absf main_arg9
  let main_cst_14 : FVec F S_ .f32 := constant S_ .f32 0x7F800000#32
  let main_v40 : FVec F S50000x64 .f32 := broadcastInDim S50000x64 ![] bcast_S_S50000x64 main_cst_14
  let main_v41 : IVec S50000x64 1 := cmpf .olt main_v39 main_v40
  let main_c_15 : IVec S_ 1 := constantI S_ 1 1#1
  let main_v42 : IVec S_ 1 := (fun x v => Host.reduce IntOp.andi x v reducesTo_S50000x64_S_d0_1 h_S_) main_v41 main_c_15
  let main_v43 : IVec S_ 1 := andi main_v38 main_v42
  main_v43

def fn_part1 {F : FTy → Type} [FloatOps F] (main_arg5 : FVec F S192x64 .f32) (main_arg6 : FVec F S192x64 .f32) (main_arg7 : FVec F S192 .f32) (main_arg8 : FVec F S192 .f32) (main_arg9 : FVec F S50000x64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S192x64 .f32 := Host.absf main_arg5
  let main_cst_6 : FVec F S_ .f32 := constant S_ .f32 0x7F800000#32
  let main_v20 : FVec F S192x64 .f32 := broadcastInDim S192x64 ![] bcast_S_S192x64 main_cst_6
  let main_v21 : IVec S192x64 1 := cmpf .olt main_v19 main_v20
  let main_c_7 : IVec S_ 1 := constantI S_ 1 1#1
  let main_v22 : IVec S_ 1 := (fun x v => Host.reduce IntOp.andi x v reducesTo_S192x64_S_d0_1 h_S_) main_v21 main_c_7
  let main_v23 : IVec S_ 1 := andi main_v18 main_v22
  let main_v24 : FVec F S192x64 .f32 := Host.absf main_arg6
  let main_cst_8 : FVec F S_ .f32 := constant S_ .f32 0x7F800000#32
  let main_v25 : FVec F S192x64 .f32 := broadcastInDim S192x64 ![] bcast_S_S192x64 main_cst_8
  let main_v26 : IVec S192x64 1 := cmpf .olt main_v24 main_v25
  let main_c_9 : IVec S_ 1 := constantI S_ 1 1#1
  let main_v27 : IVec S_ 1 := (fun x v => Host.reduce IntOp.andi x v reducesTo_S192x64_S_d0_1 h_S_) main_v26 main_c_9
  let main_v28 : IVec S_ 1 := andi main_v23 main_v27
  let main_v29 : FVec F S192 .f32 := Host.absf main_arg7
  let main_cst_10 : FVec F S_ .f32 := constant S_ .f32 0x7F800000#32
  let main_v30 : FVec F S192 .f32 := broadcastInDim S192 ![] bcast_S_S192 main_cst_10
  let main_v31 : IVec S192 1 := cmpf .olt main_v29 main_v30
  let main_c_11 : IVec S_ 1 := constantI S_ 1 1#1
  let main_v32 : IVec S_ 1 := (fun x v => Host.reduce IntOp.andi x v reducesTo_S192_S_d0 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x800000 32) (main_arg2 : FVec F S800000 .f32) (main_arg3 : FVec F S64x128 .f32) (main_arg4 : FVec F S64 .f32) (main_arg5 : FVec F S192x64 .f32) (main_arg6 : FVec F S192x64 .f32) (main_arg7 : FVec F S192 .f32) (main_arg8 : FVec F S192 .f32) (main_arg9 : FVec F S50000x64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S64x128 .f32 := Host.absf main_arg3
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S64x128 : Shape := ⟨2, ![64, 128]⟩
abbrev S64 : Shape := ⟨1, ![64]⟩
abbrev S192x64 : Shape := ⟨2, ![192, 64]⟩
abbrev S192 : Shape := ⟨1, ![192]⟩
abbrev S50000x64 : Shape := ⟨2, ![50000, 64]⟩
abbrev S1x800000 : Shape := ⟨2, ![1, 800000]⟩
abbrev S_ : Shape := ⟨0, ![]⟩
abbrev S50000 : Shape := ⟨1, ![50000]⟩
abbrev S800000x1 : Shape := ⟨2, ![800000, 1]⟩
abbrev S128x64 : Shape := ⟨2, ![128, 64]⟩
abbrev S5000x128 : Shape := ⟨2, ![5000, 128]⟩
abbrev S5000x64 : Shape := ⟨2, ![5000, 64]⟩
abbrev S800000x64 : Shape := ⟨2, ![800000, 64]⟩
abbrev S50000x1 : Shape := ⟨2, ![50000, 1]⟩
abbrev S1x64 : Shape := ⟨2, ![1, 64]⟩
abbrev S64x192 : Shape := ⟨2, ![64, 192]⟩
abbrev S1x192 : Shape := ⟨2, ![1, 192]⟩
abbrev S5000x1 : Shape := ⟨2, ![5000, 1]⟩
abbrev S5000x192 : Shape := ⟨2, ![5000, 192]⟩

abbrev nBuf : Space → Nat
  | .hbm => 67
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S64x128, .f32⟩
  | .hbm, ⟨4, _⟩ => ⟨S64, .f32⟩
  | .hbm, ⟨5, _⟩ => ⟨S192x64, .f32⟩
  | .hbm, ⟨6, _⟩ => ⟨S192x64, .f32⟩
  | .hbm, ⟨7, _⟩ => ⟨S192, .f32⟩
  | .hbm, ⟨8, _⟩ => ⟨S192, .f32⟩
  | .hbm, ⟨9, _⟩ => ⟨S50000x64, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000, .f32⟩
  | .hbm, ⟨22, _⟩ => ⟨S128x64, .f32⟩
  | .hbm, ⟨23, _⟩ => ⟨S50000x64, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000, .f32⟩
  | .hbm, ⟨33, _⟩ => ⟨S800000, .f32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000, .f32⟩
  | .hbm, ⟨43, _⟩ => ⟨S800000, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x64, .f32⟩
  | .hbm, ⟨53, _⟩ => ⟨S800000x1, .f32⟩
  | .hbm, ⟨54, _⟩ => ⟨S800000x64, .f32⟩
  | .hbm, ⟨55, _⟩ => ⟨S800000x64, .f32⟩
  | .hbm, ⟨56, _⟩ => ⟨S_, .f32⟩
  | .hbm, ⟨57, _⟩ => ⟨S50000x64, .f32⟩
  | .hbm, ⟨58, _⟩ => ⟨S800000x1, .i32⟩
  | .hbm, ⟨59, _⟩ => ⟨S50000x64, .f32⟩
  | .hbm, ⟨60, _⟩ => ⟨S50000x1, .f32⟩
  | .hbm, ⟨61, _⟩ => ⟨S1x64, .f32⟩
  | .hbm, ⟨62, _⟩ => ⟨S64x192, .f32⟩
  | .hbm, ⟨63, _⟩ => ⟨S64x192, .f32⟩
  | .hbm, ⟨64, _⟩ => ⟨S1x192, .f32⟩
  | .hbm, ⟨65, _⟩ => ⟨S1x192, .f32⟩
  | .hbm, ⟨66, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | .local _ .vmem, ⟨14, _⟩ => ⟨S64x192, .f32⟩
  | .local _ .vmem, ⟨15, _⟩ => ⟨S64x192, .f32⟩
  | .local _ .vmem, ⟨16, _⟩ => ⟨S1x192, .f32⟩
  | .local _ .vmem, ⟨17, _⟩ => ⟨S1x192, .f32⟩
  | .local _ .vmem, ⟨18, _⟩ => ⟨S5000x64, .f32⟩
  | .local _ .vmem, ⟨19, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_2 : Ref sig .tc := ⟨.hbm, 34, rfl⟩
abbrev main_v20 : Ref sig .tc := ⟨.hbm, 35, rfl⟩
abbrev main_v21 : Ref sig .tc := ⟨.hbm, 36, rfl⟩
abbrev main_c_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_4 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg9_0 : Ref sig .tc := ⟨.vmem, 18, rfl⟩
abbrev cc1_stg9_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem9_0 : DmaSem sig := 18
abbrev cc1_sem9_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S64x192 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x192 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x192 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x192 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S800000_S800000x1_0 : S800000.BroadcastsInDim S800000x1 (![0] : Fin 1 → Fin S800000x1.rank)
  transposes_S64x128_S128x64_1_0 : S64x128.Transposes [1, 0] S128x64
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S5000x64_S5000x64_0_0 : ∀ a, (![0, 0] : Fin 2 → Nat) a + S5000x64.size a ≤ S5000x64.size a
  h_S5000x64 : 0 < S5000x64.numel
  bcast_S_S800000 : S_.BroadcastsInDim S800000 (![] : Fin 0 → Fin S800000.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S64_S1x64_1 : S64.BroadcastsInDim S1x64 (![1] : Fin 1 → Fin S1x64.rank)
  transposes_S192x64_S64x192_1_0 : S192x64.Transposes [1, 0] S64x192
  bcast_S192_S1x192_1 : S192.BroadcastsInDim S1x192 (![1] : Fin 1 → Fin S1x192.rank)
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  shapeCasts_S5000x64_S5000x64 : S5000x64.ShapeCasts S5000x64
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x192_S64x192_0_0 : ∀ a, (![0, 0] : Fin 2 → Nat) a + S64x192.size a ≤ S64x192.size a
  h_S64x192 : 0 < S64x192.numel
  shapeCasts_S64x192_S64x192 : S64x192.ShapeCasts S64x192
  inb_S1x192_S1x192_0_0 : ∀ a, (![0, 0] : Fin 2 → Nat) a + S1x192.size a ≤ S1x192.size a
  h_S1x192 : 0 < S1x192.numel
  shapeCasts_S1x192_S1x192 : S1x192.ShapeCasts S1x192
  broadcasts_S1x192_S5000x192 : S1x192.Broadcasts S5000x192
  slices_S5000x192_o0_0_S5000x64 : S5000x192.Slices ![0, 0] S5000x64
  slices_S5000x192_o0_64_S5000x64 : S5000x192.Slices ![0, 64] S5000x64
  slices_S5000x192_o0_128_S5000x64 : S5000x192.Slices ![0, 128] S5000x64
  scatter_S50000_S800000x1_S800000_n_0_0_1_wf : ScatterDims.WF S50000 S800000x1 S800000 [] [0] [0] 1
  dot_S5000x128_S128x64_S5000x64_1_0_0_1_n_n_wf : DotDims.WF S5000x128 S128x64 S5000x64 [1] [0] [0] [1] [] []
  gather_S50000_S800000x1_S800000_n_0_n_n_0_1_1_wf : GatherDims.WF S50000 S800000x1 S800000 [] [0] [] [0] [] 1 ![1]
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x192_S5000x192_1_0_0_1_n_n_wf : DotDims.WF S5000x64 S64x192 S5000x192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S50000x64.size a
  hwx1_4 : ∀ i : grid1.Coords, EltTy.bits .f32 = 32 ∨ (Rect.block (s := S50000x64) S5000x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x192.size a ≤ S64x192.size a
  hwx1_5 : ∀ i : grid1.Coords, EltTy.bits .f32 = 32 ∨ (Rect.block (s := S64x192) S64x192.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x192.size a ≤ S64x192.size a
  hwx1_6 : ∀ i : grid1.Coords, EltTy.bits .f32 = 32 ∨ (Rect.block (s := S64x192) S64x192.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x192.size a ≤ S1x192.size a
  hwx1_7 : ∀ i : grid1.Coords, EltTy.bits .f32 = 32 ∨ (Rect.block (s := S1x192) S1x192.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x192.size a ≤ S1x192.size a
  hwx1_8 : ∀ i : grid1.Coords, EltTy.bits .f32 = 32 ∨ (Rect.block (s := S1x192) S1x192.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x64.size a ≤ S50000x64.size a
  hwx1_9 : ∀ i : grid1.Coords, EltTy.bits .f32 = 32 ∨ (Rect.block (s := S50000x64) S5000x64.size (cc1_transform_9 i) (hinb1_9 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x192_S5000x192_1_0_0_1_n_n : DotDims S5000x64 S64x192 S5000x192 where
  lhsContracting := [1]
  rhsContracting := [0]
  lhsNonContracting := [0]
  rhsNonContracting := [1]
  lhsBatch := []
  rhsBatch := []
  wf := dot_S5000x64_S64x192_S5000x192_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S5000x64.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v43) S64x192.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v44) S64x192.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v45) S1x192.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v46) S1x192.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v47) S5000x64.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S64x128 : Shape := ⟨2, ![64, 128]⟩
abbrev S64 : Shape := ⟨1, ![64]⟩
abbrev S192x64 : Shape := ⟨2, ![192, 64]⟩
abbrev S192 : Shape := ⟨1, ![192]⟩
abbrev S50000x64 : Shape := ⟨2, ![50000, 64]⟩
abbrev S1x800000 : Shape := ⟨2, ![1, 800000]⟩
abbrev S128x64 : Shape := ⟨2, ![128, 64]⟩
abbrev S_ : Shape := ⟨0, ![]⟩
abbrev S50000 : Shape := ⟨1, ![50000]⟩
abbrev S800000x1 : Shape := ⟨2, ![800000, 1]⟩
abbrev S800000x64 : Shape := ⟨2, ![800000, 64]⟩
abbrev S50000x1 : Shape := ⟨2, ![50000, 1]⟩
abbrev S1x64 : Shape := ⟨2, ![1, 64]⟩
abbrev S64x192 : Shape := ⟨2, ![64, 192]⟩
abbrev S50000x192 : Shape := ⟨2, ![50000, 192]⟩
abbrev S1x192 : Shape := ⟨2, ![1, 192]⟩

abbrev nBuf : Space → Nat
  | .hbm => 111
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S64x128, .f32⟩
  | .hbm, ⟨4, _⟩ => ⟨S64, .f32⟩
  | .hbm, ⟨5, _⟩ => ⟨S192x64, .f32⟩
  | .hbm, ⟨6, _⟩ => ⟨S192x64, .f32⟩
  | .hbm, ⟨7, _⟩ => ⟨S192, .f32⟩
  | .hbm, ⟨8, _⟩ => ⟨S192, .f32⟩
  | .hbm, ⟨9, _⟩ => ⟨S50000x64, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S128x64, .f32⟩
  | .hbm, ⟨15, _⟩ => ⟨S50000x64, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S50000, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000, .f32⟩
  | .hbm, ⟨33, _⟩ => ⟨S800000, .f32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000, .f32⟩
  | .hbm, ⟨43, _⟩ => ⟨S800000, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x64, .f32⟩
  | .hbm, ⟨53, _⟩ => ⟨S800000x1, .f32⟩
  | .hbm, ⟨54, _⟩ => ⟨S800000x64, .f32⟩
  | .hbm, ⟨55, _⟩ => ⟨S800000x64, .f32⟩
  | .hbm, ⟨56, _⟩ => ⟨S_, .f32⟩
  | .hbm, ⟨57, _⟩ => ⟨S50000x64, .f32⟩
  | .hbm, ⟨58, _⟩ => ⟨S800000x1, .i32⟩
  | .hbm, ⟨59, _⟩ => ⟨S50000x64, .f32⟩
  | .hbm, ⟨60, _⟩ => ⟨S50000, .f32⟩
  | .hbm, ⟨61, _⟩ => ⟨S50000x1, .f32⟩
  | .hbm, ⟨62, _⟩ => ⟨S50000x64, .f32⟩
  | .hbm, ⟨63, _⟩ => ⟨S50000x64, .f32⟩
  | .hbm, ⟨64, _⟩ => ⟨S50000x64, .f32⟩
  | .hbm, ⟨65, _⟩ => ⟨S1x64, .f32⟩
  | .hbm, ⟨66, _⟩ => ⟨S50000x64, .f32⟩
  | .hbm, ⟨67, _⟩ => ⟨S50000x64, .f32⟩
  | .hbm, ⟨68, _⟩ => ⟨S64x192, .f32⟩
  | .hbm, ⟨69, _⟩ => ⟨S50000x192, .f32⟩
  | .hbm, ⟨70, _⟩ => ⟨S1x192, .f32⟩
  | .hbm, ⟨71, _⟩ => ⟨S50000x192, .f32⟩
  | .hbm, ⟨72, _⟩ => ⟨S50000x192, .f32⟩
  | .hbm, ⟨73, _⟩ => ⟨S64x192, .f32⟩
  | .hbm, ⟨74, _⟩ => ⟨S50000x192, .f32⟩
  | .hbm, ⟨75, _⟩ => ⟨S1x192, .f32⟩
  | .hbm, ⟨76, _⟩ => ⟨S50000x192, .f32⟩
  | .hbm, ⟨77, _⟩ => ⟨S50000x192, .f32⟩
  | .hbm, ⟨78, _⟩ => ⟨S50000x64, .f32⟩
  | .hbm, ⟨79, _⟩ => ⟨S50000x64, .f32⟩
  | .hbm, ⟨80, _⟩ => ⟨S50000x64, .f32⟩
  | .hbm, ⟨81, _⟩ => ⟨S50000x64, .f32⟩
  | .hbm, ⟨82, _⟩ => ⟨S50000x64, .f32⟩
  | .hbm, ⟨83, _⟩ => ⟨S50000x64, .f32⟩
  | .hbm, ⟨84, _⟩ => ⟨S50000x64, .f32⟩
  | .hbm, ⟨85, _⟩ => ⟨S50000x64, .f32⟩
  | .hbm, ⟨86, _⟩ => ⟨S50000x64, .f32⟩
  | .hbm, ⟨87, _⟩ => ⟨S_, .f32⟩
  | .hbm, ⟨88, _⟩ => ⟨S50000x64, .f32⟩
  | .hbm, ⟨89, _⟩ => ⟨S50000x64, .f32⟩
  | .hbm, ⟨90, _⟩ => ⟨S_, .f32⟩
  | .hbm, ⟨91, _⟩ => ⟨S50000x64, .f32⟩
  | .hbm, ⟨92, _⟩ => ⟨S50000x64, .f32⟩
  | .hbm, ⟨93, _⟩ => ⟨S50000x64, .f32⟩
  | .hbm, ⟨94, _⟩ => ⟨S50000x64, .f32⟩
  | .hbm, ⟨95, _⟩ => ⟨S50000x64, .f32⟩
  | .hbm, ⟨96, _⟩ => ⟨S_, .f32⟩
  | .hbm, ⟨97, _⟩ => ⟨S50000x64, .f32⟩
  | .hbm, ⟨98, _⟩ => ⟨S50000x64, .f32⟩
  | .hbm, ⟨99, _⟩ => ⟨S_, .f32⟩
  | .hbm, ⟨100, _⟩ => ⟨S50000x64, .f32⟩
  | .hbm, ⟨101, _⟩ => ⟨S50000x64, .f32⟩
  | .hbm, ⟨102, _⟩ => ⟨S50000x64, .f32⟩
  | .hbm, ⟨103, _⟩ => ⟨S50000x64, .f32⟩
  | .hbm, ⟨104, _⟩ => ⟨S50000x64, .f32⟩
  | .hbm, ⟨105, _⟩ => ⟨S_, .f32⟩
  | .hbm, ⟨106, _⟩ => ⟨S50000x64, .f32⟩
  | .hbm, ⟨107, _⟩ => ⟨S50000x64, .f32⟩
  | .hbm, ⟨108, _⟩ => ⟨S50000x64, .f32⟩
  | .hbm, ⟨109, _⟩ => ⟨S50000x64, .f32⟩
  | .hbm, ⟨110, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_2 : Ref sig .tc := ⟨.hbm, 34, rfl⟩
abbrev main_v20 : Ref sig .tc := ⟨.hbm, 35, rfl⟩
abbrev main_v21 : Ref sig .tc := ⟨.hbm, 36, rfl⟩
abbrev main_c_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_4 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst_7 : Ref sig .tc := ⟨.hbm, 87, rfl⟩
abbrev main_v68 : Ref sig .tc := ⟨.hbm, 88, rfl⟩
abbrev main_v69 : Ref sig .tc := ⟨.hbm, 89, rfl⟩
abbrev main_cst_8 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_cst_9 : Ref sig .tc := ⟨.hbm, 96, rfl⟩
abbrev main_v75 : Ref sig .tc := ⟨.hbm, 97, rfl⟩
abbrev main_v76 : Ref sig .tc := ⟨.hbm, 98, rfl⟩
abbrev main_cst_10 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_cst_11 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  transposes_S64x128_S128x64_1_0 : S64x128.Transposes [1, 0] S128x64
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  transposes_S192x64_S64x192_1_0 : S192x64.Transposes [1, 0] S64x192
  bcast_S192_S1x192_1 : S192.BroadcastsInDim S1x192 (![1] : Fin 1 → Fin S1x192.rank)
  bcast_S1x192_S50000x192_0_1 : S1x192.BroadcastsInDim S50000x192 (![0, 1] : Fin 2 → Fin S50000x192.rank)
  slices_S50000x192_S50000x64_0_0 : S50000x192.Slices ![0, 0] S50000x64
  slices_S50000x192_S50000x64_0_64 : S50000x192.Slices ![0, 64] S50000x64
  slices_S50000x192_S50000x64_0_128 : S50000x192.Slices ![0, 128] S50000x64
  dot_S50000x128_S128x64_S50000x64_1_0_0_1_n_n_wf : DotDims.WF S50000x128 S128x64 S50000x64 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x192_S50000x192_1_0_0_1_n_n_wf : DotDims.WF S50000x64 S64x192 S50000x192 [1] [0] [0] [1] [] []

variable [Facts₀]

def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x192_S50000x192_1_0_0_1_n_n : DotDims S50000x64 S64x192 S50000x192 where
  lhsContracting := [1]
  rhsContracting := [0]
  lhsNonContracting := [0]
  rhsNonContracting := [1]
  lhsBatch := []
  rhsBatch := []
  wf := dot_S50000x64_S64x192_S50000x192_1_0_0_1_n_n_wf

class Facts : Prop extends Facts₀ where

variable [Facts]
-- ==== Proof.KernelRun.lean ====
/-
  The idealized kernel's whole run with its result NAMED: every weakly fair execution of @main ends, without a
  fault, with the result buffer at the contents the second region's write-backs leave (the last boundary's
  contents, read at the result's buffer) and every argument as launched.  @main is four segments — host
  operations, the projection region, host operations, the recurrent-cell region — and the contents at each
  boundary are the fold through them from the launch memory.
-/
import proofs.«113602_j18159121727862_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run : θ_run defs (onTc (τ := τ) (main (F := F))) ⟨m, fun _ => 0, ρ⟩ (fun r => ∀ c : Dev nD,
      r.2.mem ((c.tc : Thread nD τ).loc main_v47) = W4 m ρ c (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v47 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end Cert.KernelIdeal.Named

end
-- ==== Proof.Spec.lean ====
/-
  The mathematics both programs compute, as ONE function of the argument arrays, index by index, on the
  extended reals.  A graph-convolution layer followed by a gated recurrent cell, for 50000 nodes with 128
  input features and 64 hidden features:

    xw        = x · W_gcnᵀ                                   (one row per node)
    gcn n k   = (agg n k + (dinv n · dinv n) · xw n k) + b_gcn k
    gi n q    = (Σ_k gcn n k · W_ih q k) + b_ih q            (192 = 3 · 64 columns: reset, update, new)
    gh n q    = (Σ_k h n k   · W_hh q k) + b_hh q
    r, z      = σ(gi + gh) on the first and second 64 columns, σ t = 1 / (1 + exp (−t))
    new       = tanh (gi + r · gh) on the third 64 columns
    out n j   = (1 − z) · new + z · h n j

  The neighbourhood sum agg and the inverse square-root degrees dinv are computed by both programs with the same
  host operations (a gather and a scatter-add over the 800000 edges); they enter here as arrays.
-/
import Idealize.ShloMosaic.PureOps.Ideal
import Idealize.ShloMosaic.Lib.ValueIdx
import Idealize.ShloMosaic.Lib.IdealHost

noncomputable section

namespace Cert.GcnGru

open Idealize.ShloMosaic Idealize.ShloMosaic.ValueIdx

/-- A rank-2 array of extended reals. -/
abbrev A2 (a b : Nat) : Type := (⟨2, ![a, b]⟩ : Shape).Idx → EReal
/-- A rank-1 array of extended reals. -/
abbrev A1 (a : Nat) : Type := (⟨1, ![a]⟩ : Shape).Idx → EReal

/-- The float word of 1.0, kept as a word: both programs carry the same one. -/
abbrev one : EReal := Ideal.ofBits .f32 0x3F800000#32

/-- The projection x · Wᵀ at node n, feature j. -/
def proj (x : A2 50000 128) (w : A2 64 128) (n : Fin 50000) (j : Fin 64) : EReal :=
  ∑ k : Fin 128, x (ix2 n k) * w (ix2 j k)

/-- The graph convolution's output at node n, feature k: the neighbourhood sum, the self loop and the bias. -/
def gcn (agg xw : A2 50000 64) (dinv : A1 50000) (bg : A1 64) (n : Fin 50000) (k : Fin 64) : EReal :=
  (agg (ix2 n k) + (dinv (ix1 n) * dinv (ix1 n)) * xw (ix2 n k)) + bg (ix1 k)

/-- One gate pre-activation: a row g of 64 features against row q of a 192 × 64 weight, plus the bias. -/
def gate (g : Fin 64 → EReal) (w : A2 192 64) (b : A1 192) (q : Fin 192) : EReal :=
  (∑ k : Fin 64, g k * w (ix2 q k)) + b (ix1 q)

/-- The logistic function spelt with the float word of 1.0. -/
def sig (t : EReal) : EReal := Ideal.div one (one + Ideal.exp (-t))

/-- Column j of the reset, update and new thirds of the 192 gate columns. -/
abbrev c0 (j : Fin 64) : Fin 192 := ⟨j.val, by omega⟩
abbrev c1 (j : Fin 64) : Fin 192 := ⟨64 + j.val, by omega⟩
abbrev c2 (j : Fin 64) : Fin 192 := ⟨128 + j.val, by omega⟩

/-- The recurrent cell at one node: from the two rows of gate pre-activations and the old state. -/
def cell (gi gh : Fin 192 → EReal) (h : EReal) (j : Fin 64) : EReal :=
  (one - sig (gi (c1 j) + gh (c1 j))) * Ideal.tanh (gi (c2 j) + sig (gi (c0 j) + gh (c0 j)) * gh (c2 j))
    + sig (gi (c1 j) + gh (c1 j)) * h

/-- The layer's result at node n, feature j, from the projection xw, the neighbourhood sum agg and dinv. -/
def layer (agg xw : A2 50000 64) (dinv : A1 50000) (bg : A1 64) (wih whh : A2 192 64) (bih bhh : A1 192)
    (h : A2 50000 64) (n : Fin 50000) (j : Fin 64) : EReal :=
  cell (gate (gcn agg xw dinv bg n) wih bih) (gate (fun k => h (ix2 n k)) whh bhh) (h (ix2 n j)) j

/-- The logistic function of the library is the one spelt with the word of 1.0. -/
theorem logistic_eq_sig (t : EReal) : Ideal.logistic t = sig t := by
  unfold sig Ideal.logistic one
  rw [Ideal.ofBits_one_f32]

end Cert.GcnGru

end
-- ==== Proof.ProjBlock.lean ====
/-
  The projection kernel's stored value read at an index.  The body loads a 5000 × 128 block of x and the whole
  128 × 64 transposed weight, rounds both to bf16 (the identity on the extended reals) and multiplies them into a
  zero accumulator: entry (r, j) of what it stores is the plain sum over the 128 input features.
-/
import proofs.«113602_j18159121727862_1_alg».proof.Proof.Gen.KernelIdeal.Skeleton
import proofs.«113602_j18159121727862_1_alg».proof.Proof.Spec
import Idealize.ShloMosaic.Lib.ValueIdx
import Idealize.ShloMosaic.Lib.Pipeline.Value
import Idealize.ShloMosaic.PureOps.Ideal.Laws

noncomputable section

namespace Cert.KernelIdeal.ProjBlock

open Cert.KernelIdeal Cert.KernelIdeal.Gen Cert.GcnGru Idealize.ShloMosaic Idealize.ShloMosaic.ValueIdx

/-- The product's dimension record: rows × (contracted 128) times (contracted 128) × columns. -/
abbrev D0 : DotDims S5000x128 S128x64 S5000x64 := dot_S5000x128_S128x64_S5000x64_1_0_0_1_n_n

/-- The left operand's row is the result's row. -/
theorem lhs_row (i : S5000x64.Idx) (q : D0.contr.Idx) : (D0.lhsIdx i q 0).val = (i 0).val := by
  unfold DotDims.lhsIdx
  rw [dif_neg (show ¬(0 : Fin S5000x128.rank) ∈ D0.lhsBatch by decide), dif_pos (show (0 : Fin S5000x128.rank) ∈ D0.lhsNonContracting by decide)]
  rfl

/-- The right operand's column is the result's column. -/
theorem rhs_col (i : S5000x64.Idx) (q : D0.contr.Idx) : (D0.rhsIdx i q 1).val = (i 1).val := by
  unfold DotDims.rhsIdx
  rw [dif_neg (show ¬(1 : Fin S128x64.rank) ∈ D0.rhsBatch by decide), dif_pos (show (1 : Fin S128x64.rank) ∈ D0.rhsNonContracting by decide)]
  rfl

/-- The product into a zero accumulator at (r, j): the sum over the contracted axis. -/
theorem matmul_apply (lhs : FVec Ideal S5000x128 .bf16) (rhs : FVec Ideal S128x64 .bf16) (r : Fin 5000) (j : Fin 64) :
    matmul D0 none lhs rhs (constant S5000x64 .f32 0x00000000#32) (ix2 r j) = ∑ k : Fin 128, lhs (ix2 r k) * rhs (ix2 k j) := by
  refine (Ideal.matmul_constant_zero_apply D0 none lhs rhs (ix2 r j)).trans ?_
  rw [← Equiv.sum_comp (contrEquiv1 D0 128 rfl rfl).symm]
  refine Finset.sum_congr rfl fun k _ => ?_
  have hk := contrEquiv1_symm_val D0 128 rfl rfl k
  have el : D0.lhsIdx (ix2 r j) ((contrEquiv1 D0 128 rfl rfl).symm k) = ix2 r k := funext fun a => Fin.ext (by
    match a with
    | ⟨0, _⟩ => exact lhs_row _ _
    | ⟨1, _⟩ => exact (D0.lhsIdx_val_of_single rfl _ _).trans hk)
  have er : D0.rhsIdx (ix2 r j) ((contrEquiv1 D0 128 rfl rfl).symm k) = ix2 k j := funext fun a => Fin.ext (by
    match a with
    | ⟨0, _⟩ => exact (D0.rhsIdx_val_of_single rfl _ _).trans hk
    | ⟨1, _⟩ => exact rhs_col _ _)
  rw [el, er]

/-- What the projection body stores, at (r, j): Σ_k x-block (r, k) · weight (k, j). -/
theorem proj_payload_apply (v0 : Vec Ideal S5000x128 .f32) (v2 : Vec Ideal S128x64 .f32) (r : Fin 5000) (j : Fin 64) :
    k0_pay1 (F := Ideal) v0 v2 (ix2 r j) = ∑ k : Fin 128, v0 (ix2 r k) * v2 (ix2 k j) := by
  unfold k0_pay1
  refine (matmul_apply _ _ r j).trans ?_
  refine Finset.sum_congr rfl fun k _ => ?_
  show v0 (ix2 r k) * (shapeCast S128x64 v2 shapeCasts_S128x64_S128x64) (ix2 k j) = _
  rw [shapeCast_self]

end Cert.KernelIdeal.ProjBlock

end
-- ==== Proof.ProjValue.lean ====
/-
  The projection region's result array as ONE function of the arrays the region finds.  The grid has ten points;
  point t reads rows 5000 t … 5000 t + 4999 of x, the whole transposed weight, and writes back rows
  5000 t … 5000 t + 4999 of the result.  So entry (n, j) of the array after the region is
  Σ_k x (n, k) · weightᵀ (k, j): the ten row blocks tile the 50000 rows.
-/
import proofs.«113602_j18159121727862_1_alg».proof.Proof.Gen.KernelIdeal.Frame
import proofs.«113602_j18159121727862_1_alg».proof.Proof.ProjBlock
import Idealize.ShloMosaic.Lib.Pipeline.Value

set_option maxRecDepth 16384

noncomputable section

namespace Cert.KernelIdeal.ProjValue

open Cert.KernelIdeal Cert.KernelIdeal.Gen Cert.GcnGru
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The whole-array function: row n of x against column j of the transposed weight. -/
def xw (a0 : S50000x128.Idx → Elt Ideal .f32) (a1 : S128x64.Idx → Elt Ideal .f32) : S50000x64.Idx → Elt Ideal .f32 :=
  fun i => ∑ k : Fin 128, a0 (ix2 (⟨(i 0).val, idx2_lt0 i⟩ : Fin 50000) k) * a1 (ix2 k (⟨(i 1).val, idx2_lt1 i⟩ : Fin 64))

/-- The index maps over the grid: x and the result move down one row block per point, the weight stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- x's block at point t is rows 5000 t … of x as the region finds it. -/
theorem xblk_apply (c : Dev nD) (t : Fin cfg0.N) (r : Fin 5000) (k : Fin 128) (i : S50000x128.Idx)
    (h0 : (i 0).val = t.val * 5000 + r.val) (h1 : (i 1).val = k.val) :
    (iblk0 V c 0 t : Vec Ideal S5000x128 .f32) (ix2 r k) = (V c main_arg0 : S50000x128.Idx → Elt Ideal .f32) i := by
  obtain ⟨e0, e1, -⟩ := idx_facts t
  unfold iblk0
  rw [View.read_apply]
  show V c main_arg0 _ = V c main_arg0 _
  congr 1
  funext a
  apply Fin.ext
  match a with
  | ⟨0, _⟩ => show win0_0.index t 0 * 5000 + 1 * r.val = (i 0).val; rw [e0, h0]; omega
  | ⟨1, _⟩ => show win0_0.index t 1 * 128 + 1 * k.val = (i 1).val; rw [e1, h1]; omega

/-- The weight's block at every point is the whole transposed weight. -/
theorem wblk_apply (c : Dev nD) (t : Fin cfg0.N) (k : Fin 128) (j : Fin 64) (i : S128x64.Idx)
    (h0 : (i 0).val = k.val) (h1 : (i 1).val = j.val) :
    (iblk0 V c 1 t : Vec Ideal S128x64 .f32) (ix2 k j) = (V c main_v10 : S128x64.Idx → Elt Ideal .f32) i := by
  obtain ⟨-, -, e2, e3, -⟩ := idx_facts t
  unfold iblk0
  rw [View.read_apply]
  show V c main_v10 _ = V c main_v10 _
  congr 1
  funext a
  apply Fin.ext
  match a with
  | ⟨0, _⟩ => show win0_1.index t 0 * 128 + 1 * k.val = (i 0).val; rw [e2, h0]; omega
  | ⟨1, _⟩ => show win0_1.index t 1 * 64 + 1 * j.val = (i 1).val; rw [e3, h1]; omega

/-- WHAT POINT t WRITES BACK is block t of the whole-array function. -/
theorem flushed_eq (c : Dev nD) (t : Fin cfg0.N) :
    (dat0 V c).flushed 2 t = ((cfg0.win 2).blk t).view.read (Elt Ideal) (xw (V c main_arg0) (V c main_v10)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x64) hz]
  obtain ⟨-, -, -, -, e4, e5⟩ := idx_facts t
  funext y
  obtain ⟨r, j, rfl⟩ : ∃ (r : Fin 5000) (j : Fin 64), y = ix2 r j := ⟨y 0, y 1, eq_ix2 y⟩
  show k0_pay1 (F := Ideal) (iblk0 V c 0 t) (iblk0 V c 1 t) (ix2 r j) = xw (V c main_arg0) (V c main_v10) (((cfg0.win 2).blk t).view.emb (ix2 r j))
  refine (ProjBlock.proj_payload_apply _ _ r j).trans ?_
  unfold xw
  refine Finset.sum_congr rfl fun k _ => ?_
  refine congrArg₂ (· * ·) (xblk_apply V c t r k _ ?_ ?_) (wblk_apply V c t k j _ ?_ ?_)
  · show win0_2.index t 0 * 5000 + 1 * r.val = t.val * 5000 + r.val
    rw [e4]; omega
  · rfl
  · rfl
  · show win0_2.index t 1 * 64 + 1 * j.val = j.val
    rw [e5]; omega

/-- An index is in point t's block iff each coordinate is in the block's range on its axis. -/
theorem mem_blk (t : Fin cfg0.N) (i : S50000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v11).slice (win0_2.rect t)).set ↔ _
  rw [View.set_slice_whole, Rect.mem_set_unit]
  exact Iff.rfl

/-- Every index of the result lies in some point's block: row n in the block of point n / 5000. -/
theorem cover (i : S50000x64.Idx) : ∃ t : Fin cfg0.N, (cfg0.win 2).flush t = true ∧ i ∈ ((cfg0.win 2).blk t).view.set := by
  have hi0 : (i 0).val < 50000 := (i 0).isLt
  have hi1 : (i 1).val < 64 := (i 1).isLt
  have hN : cfg0.N = 10 := N_0
  obtain ⟨t, ht⟩ : ∃ t : Fin cfg0.N, t.val = (i 0).val / 5000 := ⟨⟨(i 0).val / 5000, by rw [hN]; omega⟩, rfl⟩
  obtain ⟨-, -, -, -, e4, e5⟩ := idx_facts t
  refine ⟨t, flush0_2 t, ?_⟩
  rw [mem_blk]
  intro a
  match a with
  | ⟨0, _⟩ =>
    show win0_2.index t 0 * 5000 ≤ (i 0).val ∧ (i 0).val < win0_2.index t 0 * 5000 + 5000
    rw [e4, ht]; omega
  | ⟨1, _⟩ =>
    show win0_2.index t 1 * 64 ≤ (i 1).val ∧ (i 1).val < win0_2.index t 1 * 64 + 64
    rw [e5]; omega

/-- THE ARRAY after the region: the whole-array function of what the region found. -/
theorem final (c : Dev nD) : (dat0 V c).arrAt 2 cfg0.N = xw (V c main_arg0) (V c main_v10) :=
  (dat0 V c).arrAt_eq_of_cover 2 (xw (V c main_arg0) (V c main_v10)) (fun t _ => flushed_eq V c t) cover

end Cert.KernelIdeal.ProjValue

end
-- ==== Proof.RefLayer.lean ====
/-
  The reference program's result, read at an index, is the specification's layer.

  The reference computes, for node n and feature j,
    xw        = x · W_gcnᵀ                       (a transpose followed by a contraction over the 128 inputs)
    gcn       = (agg + (dinv · dinv) · xw) + b_gcn
    gi, gh    = gcn · W_ihᵀ + b_ih,  h · W_hhᵀ + b_hh   (192 columns each)
    r, z      = 1 / (1 + exp (−(gi + gh)))  on the first and second 64 columns
    new       = tanh (gi + r · gh)          on the third 64 columns
    out       = (1 − z) · new + z · h
  Every step is an elementwise operation, a broadcast, a transpose, a slice or a contraction, so each result
  element is read from the operands' elements at indices computed from the literal shapes.  The neighbourhood
  sum agg, the projection xw and the inverse square-root degrees dinv stay opaque arrays here.
-/
import proofs.«113602_j18159121727862_1_alg».proof.Proof.Gen.ReferenceIdeal.Read
import proofs.«113602_j18159121727862_1_alg».proof.Proof.Spec
import Idealize.ShloMosaic.Lib.ValueIdx
import Idealize.ShloMosaic.Lib.Pipeline.Value
import Idealize.ShloMosaic.PureOps.Ideal.Laws

noncomputable section

namespace Cert.ReferenceIdeal.RefLayer

open Cert.ReferenceIdeal Cert.ReferenceIdeal.Gen Cert.ReferenceIdeal.Read Cert.GcnGru
open Idealize.ShloMosaic Idealize.ShloMosaic.ValueIdx

/-! ## The projection x · W_gcnᵀ -/

/-- The contraction's left operand is read at (n, k). -/
theorem lidx5 (n : Fin 50000) (j : Fin 64) (k : Fin 128) : lidx_main_v5 (ix2 n j) k = ix2 n k :=
  funext fun a => Fin.ext (by match a with | ⟨0, _⟩ => rfl | ⟨1, _⟩ => rfl)

/-- The contraction's right operand is the transposed weight, so the weight itself is read at (j, k). -/
theorem ridx5 (n : Fin 50000) (j : Fin 64) (k : Fin 128) : idx_main_v4 (ridx_main_v5 (ix2 n j) k) = ix2 j k :=
  funext fun a => Fin.ext (by match a with | ⟨0, _⟩ => rfl | ⟨1, _⟩ => rfl)

theorem ref_proj (x0 : (⟨S50000x128, .f32⟩ : BufTy).Contents (Elt Ideal)) (x3 : (⟨S64x128, .f32⟩ : BufTy).Contents (Elt Ideal)) (n : Fin 50000) (j : Fin 64) :
    val_main_v5 (F := Ideal) x0 x3 (ix2 n j) = proj x0 x3 n j := by
  rw [val_main_v5_apply]
  unfold proj
  refine Finset.sum_congr rfl fun k _ => ?_
  rw [val_main_v4_apply, lidx5, ridx5]

/-! ## The graph convolution: (agg + (dinv · dinv) · xw) + b_gcn -/

/-- The column broadcast [50000] → [50000, 1] → [50000, 64] reads its source at n. -/
theorem idx43 (n : Fin 50000) (k : Fin 64) : idx_main_v42 (idx_main_v43 (ix2 n k)) = ix1 n :=
  funext fun a => Fin.ext (by match a with | ⟨0, _⟩ => rfl)

/-- The row broadcast [64] → [1, 64] → [50000, 64] reads its source at k. -/
theorem idx47 (n : Fin 50000) (k : Fin 64) : idx_main_v46 (idx_main_v47 (ix2 n k)) = ix1 k :=
  funext fun a => Fin.ext (by match a with | ⟨0, _⟩ => rfl)

theorem gcn_apply (x0 : (⟨S50000x128, .f32⟩ : BufTy).Contents (Elt Ideal)) (x1 : (⟨S2x800000, .i32⟩ : BufTy).Contents (Elt Ideal)) (x2 : (⟨S800000, .f32⟩ : BufTy).Contents (Elt Ideal)) (x3 : (⟨S64x128, .f32⟩ : BufTy).Contents (Elt Ideal)) (x4 : (⟨S64, .f32⟩ : BufTy).Contents (Elt Ideal)) (n : Fin 50000) (k : Fin 64) :
    val_main_v48 (F := Ideal) x0 x1 x2 x3 x4 (ix2 n k)
      = gcn (val_main_v40 (F := Ideal) x0 x1 x2 x3) (val_main_v5 (F := Ideal) x0 x3) (val_main_v11 (F := Ideal) x1 x2) x4 n k := by
  rw [val_main_v48_apply, val_main_v45_apply, val_main_v44_apply, val_main_v43_apply, val_main_v42_apply,
    val_main_v41_apply, val_main_v47_apply, val_main_v46_apply, idx43, idx47]
  rfl

/-! ## The two rows of gate pre-activations -/

/-- The contraction over the 64 hidden features reads its left operand at (n, k). -/
theorem lidx50 (n : Fin 50000) (q : Fin 192) (k : Fin 64) : lidx_main_v50 (ix2 n q) k = ix2 n k :=
  funext fun a => Fin.ext (by match a with | ⟨0, _⟩ => rfl | ⟨1, _⟩ => rfl)

/-- Its right operand is the transposed weight W_ih, so the weight itself is read at (q, k). -/
theorem ridx50 (n : Fin 50000) (q : Fin 192) (k : Fin 64) : idx_main_v49 (ridx_main_v50 (ix2 n q) k) = ix2 q k :=
  funext fun a => Fin.ext (by match a with | ⟨0, _⟩ => rfl | ⟨1, _⟩ => rfl)

/-- The row broadcast [192] → [1, 192] → [50000, 192] of b_ih reads its source at q. -/
theorem idx52 (n : Fin 50000) (q : Fin 192) : idx_main_v51 (idx_main_v52 (ix2 n q)) = ix1 q :=
  funext fun a => Fin.ext (by match a with | ⟨0, _⟩ => rfl)

theorem lidx55 (n : Fin 50000) (q : Fin 192) (k : Fin 64) : lidx_main_v55 (ix2 n q) k = ix2 n k :=
  funext fun a => Fin.ext (by match a with | ⟨0, _⟩ => rfl | ⟨1, _⟩ => rfl)

theorem ridx55 (n : Fin 50000) (q : Fin 192) (k : Fin 64) : idx_main_v54 (ridx_main_v55 (ix2 n q) k) = ix2 q k :=
  funext fun a => Fin.ext (by match a with | ⟨0, _⟩ => rfl | ⟨1, _⟩ => rfl)

theorem idx57 (n : Fin 50000) (q : Fin 192) : idx_main_v56 (idx_main_v57 (ix2 n q)) = ix1 q :=
  funext fun a => Fin.ext (by match a with | ⟨0, _⟩ => rfl)

/-- The input-side pre-activation: the graph convolution's row against row q of W_ih, plus b_ih q. -/
theorem gi_apply (x0 : (⟨S50000x128, .f32⟩ : BufTy).Contents (Elt Ideal)) (x1 : (⟨S2x800000, .i32⟩ : BufTy).Contents (Elt Ideal)) (x2 : (⟨S800000, .f32⟩ : BufTy).Contents (Elt Ideal)) (x3 : (⟨S64x128, .f32⟩ : BufTy).Contents (Elt Ideal)) (x4 : (⟨S64, .f32⟩ : BufTy).Contents (Elt Ideal)) (x5 : (⟨S192x64, .f32⟩ : BufTy).Contents (Elt Ideal)) (x7 : (⟨S192, .f32⟩ : BufTy).Contents (Elt Ideal)) (n : Fin 50000) (q : Fin 192) :
    val_main_v53 (F := Ideal) x0 x1 x2 x3 x4 x5 x7 (ix2 n q)
      = gate (gcn (val_main_v40 (F := Ideal) x0 x1 x2 x3) (val_main_v5 (F := Ideal) x0 x3) (val_main_v11 (F := Ideal) x1 x2) x4 n) x5 x7 q := by
  rw [val_main_v53_apply, val_main_v50_apply, val_main_v52_apply, val_main_v51_apply, idx52]
  unfold gate
  refine congrArg (· + x7 (ix1 q)) (Finset.sum_congr rfl fun k _ => ?_)
  rw [val_main_v49_apply, lidx50, ridx50, gcn_apply]

/-- The state-side pre-activation: the old state's row against row q of W_hh, plus b_hh q. -/
theorem gh_apply (x6 : (⟨S192x64, .f32⟩ : BufTy).Contents (Elt Ideal)) (x8 : (⟨S192, .f32⟩ : BufTy).Contents (Elt Ideal)) (x9 : (⟨S50000x64, .f32⟩ : BufTy).Contents (Elt Ideal)) (n : Fin 50000) (q : Fin 192) :
    val_main_v58 (F := Ideal) x6 x8 x9 (ix2 n q) = gate (fun k => x9 (ix2 n k)) x6 x8 q := by
  rw [val_main_v58_apply, val_main_v55_apply, val_main_v57_apply, val_main_v56_apply, idx57]
  unfold gate
  refine congrArg (· + x8 (ix1 q)) (Finset.sum_congr rfl fun k _ => ?_)
  rw [val_main_v54_apply, lidx55, ridx55]

/-! ## The three thirds of the 192 gate columns -/

theorem idx59 (n : Fin 50000) (j : Fin 64) : idx_main_v59 (ix2 n j) = ix2 n (c0 j) :=
  funext fun a => Fin.ext (by match a with | ⟨0, _⟩ => rfl | ⟨1, _⟩ => rfl)
theorem idx60 (n : Fin 50000) (j : Fin 64) : idx_main_v60 (ix2 n j) = ix2 n (c1 j) :=
  funext fun a => Fin.ext (by match a with | ⟨0, _⟩ => rfl | ⟨1, _⟩ => rfl)
theorem idx61 (n : Fin 50000) (j : Fin 64) : idx_main_v61 (ix2 n j) = ix2 n (c2 j) :=
  funext fun a => Fin.ext (by match a with | ⟨0, _⟩ => rfl | ⟨1, _⟩ => rfl)
theorem idx62 (n : Fin 50000) (j : Fin 64) : idx_main_v62 (ix2 n j) = ix2 n (c0 j) :=
  funext fun a => Fin.ext (by match a with | ⟨0, _⟩ => rfl | ⟨1, _⟩ => rfl)
theorem idx63 (n : Fin 50000) (j : Fin 64) : idx_main_v63 (ix2 n j) = ix2 n (c1 j) :=
  funext fun a => Fin.ext (by match a with | ⟨0, _⟩ => rfl | ⟨1, _⟩ => rfl)
theorem idx64 (n : Fin 50000) (j : Fin 64) : idx_main_v64 (ix2 n j) = ix2 n (c2 j) :=
  funext fun a => Fin.ext (by match a with | ⟨0, _⟩ => rfl | ⟨1, _⟩ => rfl)

/-! ## The recurrent cell -/

/-- The reference spells the logistic function as 1 / (1 + exp (−t)) with the float word of 1.0 broadcast to the
    array's shape; with the two pre-activation rows read as above, the gating is the specification's cell. -/
theorem ref_eq_layer (x0 : (⟨S50000x128, .f32⟩ : BufTy).Contents (Elt Ideal)) (x1 : (⟨S2x800000, .i32⟩ : BufTy).Contents (Elt Ideal)) (x2 : (⟨S800000, .f32⟩ : BufTy).Contents (Elt Ideal)) (x3 : (⟨S64x128, .f32⟩ : BufTy).Contents (Elt Ideal)) (x4 : (⟨S64, .f32⟩ : BufTy).Contents (Elt Ideal)) (x5 x6 : (⟨S192x64, .f32⟩ : BufTy).Contents (Elt Ideal)) (x7 x8 : (⟨S192, .f32⟩ : BufTy).Contents (Elt Ideal)) (x9 : (⟨S50000x64, .f32⟩ : BufTy).Contents (Elt Ideal)) (n : Fin 50000) (j : Fin 64) :
    val_main_v86 (F := Ideal) x0 x1 x2 x3 x4 x5 x6 x7 x8 x9 (ix2 n j)
      = layer (val_main_v40 (F := Ideal) x0 x1 x2 x3) (val_main_v5 (F := Ideal) x0 x3) (val_main_v11 (F := Ideal) x1 x2) x4 x5 x6 x7 x8 x9 n j := by
  rw [val_main_v86_apply, val_main_v85_apply, val_main_v84_apply, val_main_v83_apply, val_main_v82_apply,
    val_main_v81_apply, val_main_v80_apply, val_main_v79_apply, val_main_v78_apply, val_main_v77_apply,
    val_main_v76_apply, val_main_v75_apply, val_main_v74_apply, val_main_v73_apply, val_main_v72_apply,
    val_main_v71_apply, val_main_v70_apply, val_main_v69_apply, val_main_v68_apply, val_main_v67_apply,
    val_main_v66_apply, val_main_v65_apply,
    val_main_v59_apply, val_main_v60_apply, val_main_v61_apply, val_main_v62_apply, val_main_v63_apply,
    val_main_v64_apply, idx59, idx60, idx61, idx62, idx63, idx64, gi_apply, gi_apply, gi_apply, gh_apply, gh_apply, gh_apply,
    val_main_cst_7_apply, val_main_cst_8_apply, val_main_cst_9_apply, val_main_cst_10_apply, val_main_cst_11_apply]
  simp only [Ideal.addf_def, Ideal.mulf_def, Ideal.subf_def, Ideal.hostDivf_def, Ideal.hostUnary_exp_def,
    Ideal.hostUnary_tanh_def, Ideal.hostNegf_def, Ideal.negf_def, Ideal.ofBits_def]
  unfold layer cell Cert.GcnGru.sig
  rfl

end Cert.ReferenceIdeal.RefLayer

end
-- ==== Proof.KernelHost.lean ====
/-
  What the host operations around the two regions leave in the arrays the recurrent-cell region reads, as the
  reference's own stages of the arguments.  Before the first region: the two rows of the edge list, the inverse
  square-root degrees and the transposed projection weight.  Between the regions: the neighbourhood sum — a gather
  of the projected features along the edges' sources, scaled by the edge norms, scatter-added at the edges'
  targets —, which is ONE function of the projected features and is applied by both programs to equal arrays; the
  degrees as a column; the biases as rows; the two gate weights transposed.  The projected features themselves are
  the first region's result array, row n against column j of the transposed weight: the reference's product.
-/
import proofs.«113602_j18159121727862_1_alg».proof.Proof.Gen.KernelIdeal.Frame
import proofs.«113602_j18159121727862_1_alg».proof.Proof.Gen.ReferenceIdeal.Read
import proofs.«113602_j18159121727862_1_alg».proof.Proof.ProjValue
import proofs.«113602_j18159121727862_1_alg».proof.Proof.RefLayer
import Idealize.ShloMosaic.Lib.StableHlo.Run

set_option maxRecDepth 16384

noncomputable section

namespace Cert.KernelIdeal.HostVals

open Cert.KernelIdeal Cert.KernelIdeal.Gen Cert.GcnGru
open Idealize.ShloMosaic Idealize.ShloMosaic.TcCoe Idealize.ShloMosaic.ValueIdx Idealize.SL.Sem Idealize.ShloMosaic.StableHlo

section Shared
variable {F : FTy → Type} [FloatOps F]

/-- The neighbourhood sum as a function of the projected features: gather the rows at the edges' sources, scale
    by the edge norms, scatter-add at the edges' targets. -/
def aggOf (xw : (⟨Cert.ReferenceIdeal.S50000x64, .f32⟩ : BufTy).Contents (Elt F)) (x1 : (⟨Cert.ReferenceIdeal.S2x800000, .i32⟩ : BufTy).Contents (Elt F)) (x2 : (⟨Cert.ReferenceIdeal.S800000, .f32⟩ : BufTy).Contents (Elt F)) : (⟨Cert.ReferenceIdeal.S50000x64, .f32⟩ : BufTy).Contents (Elt F) :=
  Host.scatterAdd Cert.ReferenceIdeal.scatter_S50000x64_S800000x1_S800000x64_1_0_0_1 (Cert.ReferenceIdeal.Read.val_main_v38 (F := F)) (Cert.ReferenceIdeal.Read.val_main_v39 (F := F) x1)
    (mulf (Host.gather Cert.ReferenceIdeal.gather_S50000x64_S800000x1_S800000x64_1_0_n_n_0_1_164 xw (Cert.ReferenceIdeal.Read.val_main_v33 (F := F) x1)) (Cert.ReferenceIdeal.Read.val_main_v36 (F := F) x1 x2))

/-- The reference's neighbourhood sum is that function of its own projected features. -/
theorem v40_eq (x0 x1 x2 x3) : Cert.ReferenceIdeal.Read.val_main_v40 (F := F) x0 x1 x2 x3 = aggOf (Cert.ReferenceIdeal.Read.val_main_v5 (F := F) x0 x3) x1 x2 := rfl

end Shared

/-- The first region's whole-array function at the transposed weight is the reference's product. -/
theorem xw_eq_ref (x0 : (⟨Cert.ReferenceIdeal.S50000x128, .f32⟩ : BufTy).Contents (Elt Ideal)) (x3 : (⟨Cert.ReferenceIdeal.S64x128, .f32⟩ : BufTy).Contents (Elt Ideal)) :
    ProjValue.xw x0 (Cert.ReferenceIdeal.Read.val_main_v4 (F := Ideal) x3) = Cert.ReferenceIdeal.Read.val_main_v5 (F := Ideal) x0 x3 := by
  funext i
  obtain ⟨n, j, rfl⟩ : ∃ (n : Fin 50000) (j : Fin 64), i = ix2 n j := ⟨i 0, i 1, eq_ix2 i⟩
  rw [Cert.ReferenceIdeal.RefLayer.ref_proj]
  unfold ProjValue.xw proj
  refine Finset.sum_congr rfl fun k _ => ?_
  refine congrArg₂ (· * ·) rfl ?_
  rw [Cert.ReferenceIdeal.Read.val_main_v4_apply]
  refine congrArg x3 (funext fun a => Fin.ext ?_)
  match a with
  | ⟨0, _⟩ => rfl
  | ⟨1, _⟩ => rfl

variable (m : (ℓ : Loc nD τ sig) → Buf (Elt Ideal) ℓ) (ρ : Dev nD → PrngReg)

/-! ## After the first stretch of host operations -/

theorem W1_v1 (c : Dev nD) : W1 m ρ c (Proc.devRef .tc main_v1) = Cert.ReferenceIdeal.Read.val_main_v1 (F := Ideal) (m ((c.tc : Thread nD τ).loc main_arg1)) := by
  show StableHlo.after hostOps0 (W0 m ρ c) (Proc.devRef .tc main_v1) = _
  dsimp only [hostOps0]; after_results; rfl
theorem W1_v3 (c : Dev nD) : W1 m ρ c (Proc.devRef .tc main_v3) = Cert.ReferenceIdeal.Read.val_main_v3 (F := Ideal) (m ((c.tc : Thread nD τ).loc main_arg1)) := by
  show StableHlo.after hostOps0 (W0 m ρ c) (Proc.devRef .tc main_v3) = _
  dsimp only [hostOps0]; after_results; rfl
theorem W1_v9 (c : Dev nD) : W1 m ρ c (Proc.devRef .tc main_v9) = Cert.ReferenceIdeal.Read.val_main_v11 (F := Ideal) (m ((c.tc : Thread nD τ).loc main_arg1)) (m ((c.tc : Thread nD τ).loc main_arg2)) := by
  show StableHlo.after hostOps0 (W0 m ρ c) (Proc.devRef .tc main_v9) = _
  dsimp only [hostOps0]; after_results; rfl
theorem W1_v10 (c : Dev nD) : W1 m ρ c (Proc.devRef .tc main_v10) = Cert.ReferenceIdeal.Read.val_main_v4 (F := Ideal) (m ((c.tc : Thread nD τ).loc main_arg3)) := by
  show StableHlo.after hostOps0 (W0 m ρ c) (Proc.devRef .tc main_v10) = _
  dsimp only [hostOps0]; after_results; rfl
theorem W1_arg0 (c : Dev nD) : W1 m ρ c (Proc.devRef .tc main_arg0) = (m ((c.tc : Thread nD τ).loc main_arg0)) := by
  show StableHlo.after hostOps0 (W0 m ρ c) (Proc.devRef .tc main_arg0) = _
  dsimp only [hostOps0]; after_results
theorem W1_arg2 (c : Dev nD) : W1 m ρ c (Proc.devRef .tc main_arg2) = (m ((c.tc : Thread nD τ).loc main_arg2)) := by
  show StableHlo.after hostOps0 (W0 m ρ c) (Proc.devRef .tc main_arg2) = _
  dsimp only [hostOps0]; after_results
theorem W1_arg4 (c : Dev nD) : W1 m ρ c (Proc.devRef .tc main_arg4) = (m ((c.tc : Thread nD τ).loc main_arg4)) := by
  show StableHlo.after hostOps0 (W0 m ρ c) (Proc.devRef .tc main_arg4) = _
  dsimp only [hostOps0]; after_results
theorem W1_arg5 (c : Dev nD) : W1 m ρ c (Proc.devRef .tc main_arg5) = (m ((c.tc : Thread nD τ).loc main_arg5)) := by
  show StableHlo.after hostOps0 (W0 m ρ c) (Proc.devRef .tc main_arg5) = _
  dsimp only [hostOps0]; after_results
theorem W1_arg6 (c : Dev nD) : W1 m ρ c (Proc.devRef .tc main_arg6) = (m ((c.tc : Thread nD τ).loc main_arg6)) := by
  show StableHlo.after hostOps0 (W0 m ρ c) (Proc.devRef .tc main_arg6) = _
  dsimp only [hostOps0]; after_results
theorem W1_arg7 (c : Dev nD) : W1 m ρ c (Proc.devRef .tc main_arg7) = (m ((c.tc : Thread nD τ).loc main_arg7)) := by
  show StableHlo.after hostOps0 (W0 m ρ c) (Proc.devRef .tc main_arg7) = _
  dsimp only [hostOps0]; after_results
theorem W1_arg8 (c : Dev nD) : W1 m ρ c (Proc.devRef .tc main_arg8) = (m ((c.tc : Thread nD τ).loc main_arg8)) := by
  show StableHlo.after hostOps0 (W0 m ρ c) (Proc.devRef .tc main_arg8) = _
  dsimp only [hostOps0]; after_results
theorem W1_arg9 (c : Dev nD) : W1 m ρ c (Proc.devRef .tc main_arg9) = (m ((c.tc : Thread nD τ).loc main_arg9)) := by
  show StableHlo.after hostOps0 (W0 m ρ c) (Proc.devRef .tc main_arg9) = _
  dsimp only [hostOps0]; after_results

/-! ## After the first region: its result is the reference's product, everything else is as before -/

theorem W2_v1 (c : Dev nD) : W2 m ρ c (Proc.devRef .tc main_v1) = Cert.ReferenceIdeal.Read.val_main_v1 (F := Ideal) (m ((c.tc : Thread nD τ).loc main_arg1)) :=
  (W2_of_ne m ρ c main_v1 (by decide)).trans (W1_v1 m ρ c)
theorem W2_v3 (c : Dev nD) : W2 m ρ c (Proc.devRef .tc main_v3) = Cert.ReferenceIdeal.Read.val_main_v3 (F := Ideal) (m ((c.tc : Thread nD τ).loc main_arg1)) :=
  (W2_of_ne m ρ c main_v3 (by decide)).trans (W1_v3 m ρ c)
theorem W2_v9 (c : Dev nD) : W2 m ρ c (Proc.devRef .tc main_v9) = Cert.ReferenceIdeal.Read.val_main_v11 (F := Ideal) (m ((c.tc : Thread nD τ).loc main_arg1)) (m ((c.tc : Thread nD τ).loc main_arg2)) :=
  (W2_of_ne m ρ c main_v9 (by decide)).trans (W1_v9 m ρ c)
theorem W2_arg2 (c : Dev nD) : W2 m ρ c (Proc.devRef .tc main_arg2) = (m ((c.tc : Thread nD τ).loc main_arg2)) :=
  (W2_of_ne m ρ c main_arg2 (by decide)).trans (W1_arg2 m ρ c)
theorem W2_arg4 (c : Dev nD) : W2 m ρ c (Proc.devRef .tc main_arg4) = (m ((c.tc : Thread nD τ).loc main_arg4)) :=
  (W2_of_ne m ρ c main_arg4 (by decide)).trans (W1_arg4 m ρ c)
theorem W2_arg5 (c : Dev nD) : W2 m ρ c (Proc.devRef .tc main_arg5) = (m ((c.tc : Thread nD τ).loc main_arg5)) :=
  (W2_of_ne m ρ c main_arg5 (by decide)).trans (W1_arg5 m ρ c)
theorem W2_arg6 (c : Dev nD) : W2 m ρ c (Proc.devRef .tc main_arg6) = (m ((c.tc : Thread nD τ).loc main_arg6)) :=
  (W2_of_ne m ρ c main_arg6 (by decide)).trans (W1_arg6 m ρ c)
theorem W2_arg7 (c : Dev nD) : W2 m ρ c (Proc.devRef .tc main_arg7) = (m ((c.tc : Thread nD τ).loc main_arg7)) :=
  (W2_of_ne m ρ c main_arg7 (by decide)).trans (W1_arg7 m ρ c)
theorem W2_arg8 (c : Dev nD) : W2 m ρ c (Proc.devRef .tc main_arg8) = (m ((c.tc : Thread nD τ).loc main_arg8)) :=
  (W2_of_ne m ρ c main_arg8 (by decide)).trans (W1_arg8 m ρ c)
theorem W2_arg9 (c : Dev nD) : W2 m ρ c (Proc.devRef .tc main_arg9) = (m ((c.tc : Thread nD τ).loc main_arg9)) :=
  (W2_of_ne m ρ c main_arg9 (by decide)).trans (W1_arg9 m ρ c)

theorem W2_v11 (c : Dev nD) : W2 m ρ c (Proc.devRef .tc main_v11) = Cert.ReferenceIdeal.Read.val_main_v5 (F := Ideal) (m ((c.tc : Thread nD τ).loc main_arg0)) (m ((c.tc : Thread nD τ).loc main_arg3)) := by
  refine ((W2_arr m ρ c 2).trans (ProjValue.final (V1 m ρ) c)).trans ?_
  rw [show V1 m ρ c main_arg0 = (m ((c.tc : Thread nD τ).loc main_arg0)) from W1_arg0 m ρ c, show V1 m ρ c main_v10 = Cert.ReferenceIdeal.Read.val_main_v4 (F := Ideal) (m ((c.tc : Thread nD τ).loc main_arg3)) from W1_v10 m ρ c]
  exact xw_eq_ref _ _

/-! ## After the second stretch: what the recurrent-cell region finds -/

theorem W3_v40 (c : Dev nD) : W3 m ρ c (Proc.devRef .tc main_v40) = Cert.ReferenceIdeal.Read.val_main_v40 (F := Ideal) (m ((c.tc : Thread nD τ).loc main_arg0)) (m ((c.tc : Thread nD τ).loc main_arg1)) (m ((c.tc : Thread nD τ).loc main_arg2)) (m ((c.tc : Thread nD τ).loc main_arg3)) := by
  rw [v40_eq, ← W2_v11 m ρ c]
  show StableHlo.after hostOps1 (W2 m ρ c) (Proc.devRef .tc main_v40) = _
  dsimp only [hostOps1]
  after_results_simp
  rw [W2_v1, W2_v3, W2_v9, W2_arg2]
  rfl

theorem W3_v11 (c : Dev nD) : W3 m ρ c (Proc.devRef .tc main_v11) = Cert.ReferenceIdeal.Read.val_main_v5 (F := Ideal) (m ((c.tc : Thread nD τ).loc main_arg0)) (m ((c.tc : Thread nD τ).loc main_arg3)) := by
  rw [← W2_v11 m ρ c]
  show StableHlo.after hostOps1 (W2 m ρ c) (Proc.devRef .tc main_v11) = _
  dsimp only [hostOps1]
  after_results_simp

theorem W3_v41 (c : Dev nD) : W3 m ρ c (Proc.devRef .tc main_v41) = broadcastInDim S50000x1 ![0] bcast_S50000_S50000x1_0 (Cert.ReferenceIdeal.Read.val_main_v11 (F := Ideal) (m ((c.tc : Thread nD τ).loc main_arg1)) (m ((c.tc : Thread nD τ).loc main_arg2))) := by
  show StableHlo.after hostOps1 (W2 m ρ c) (Proc.devRef .tc main_v41) = _
  dsimp only [hostOps1]
  after_results_simp
  rw [W2_v9]

theorem W3_v42 (c : Dev nD) : W3 m ρ c (Proc.devRef .tc main_v42) = Cert.ReferenceIdeal.Read.val_main_v46 (F := Ideal) (m ((c.tc : Thread nD τ).loc main_arg4)) := by
  show StableHlo.after hostOps1 (W2 m ρ c) (Proc.devRef .tc main_v42) = _
  dsimp only [hostOps1]
  after_results_simp
  rw [W2_arg4]
  rfl

theorem W3_v43 (c : Dev nD) : W3 m ρ c (Proc.devRef .tc main_v43) = Cert.ReferenceIdeal.Read.val_main_v49 (F := Ideal) (m ((c.tc : Thread nD τ).loc main_arg5)) := by
  show StableHlo.after hostOps1 (W2 m ρ c) (Proc.devRef .tc main_v43) = _
  dsimp only [hostOps1]
  after_results_simp
  rw [W2_arg5]
  rfl

theorem W3_v44 (c : Dev nD) : W3 m ρ c (Proc.devRef .tc main_v44) = Cert.ReferenceIdeal.Read.val_main_v54 (F := Ideal) (m ((c.tc : Thread nD τ).loc main_arg6)) := by
  show StableHlo.after hostOps1 (W2 m ρ c) (Proc.devRef .tc main_v44) = _
  dsimp only [hostOps1]
  after_results_simp
  rw [W2_arg6]
  rfl

theorem W3_v45 (c : Dev nD) : W3 m ρ c (Proc.devRef .tc main_v45) = Cert.ReferenceIdeal.Read.val_main_v51 (F := Ideal) (m ((c.tc : Thread nD τ).loc main_arg7)) := by
  show StableHlo.after hostOps1 (W2 m ρ c) (Proc.devRef .tc main_v45) = _
  dsimp only [hostOps1]
  after_results_simp
  rw [W2_arg7]
  rfl

theorem W3_v46 (c : Dev nD) : W3 m ρ c (Proc.devRef .tc main_v46) = Cert.ReferenceIdeal.Read.val_main_v56 (F := Ideal) (m ((c.tc : Thread nD τ).loc main_arg8)) := by
  show StableHlo.after hostOps1 (W2 m ρ c) (Proc.devRef .tc main_v46) = _
  dsimp only [hostOps1]
  after_results_simp
  rw [W2_arg8]
  rfl

theorem W3_arg9 (c : Dev nD) : W3 m ρ c (Proc.devRef .tc main_arg9) = (m ((c.tc : Thread nD τ).loc main_arg9)) := by
  rw [← W2_arg9 m ρ c]
  show StableHlo.after hostOps1 (W2 m ρ c) (Proc.devRef .tc main_arg9) = _
  dsimp only [hostOps1]
  after_results_simp

end Cert.KernelIdeal.HostVals

end
-- ==== Proof.CellBlock.lean ====
/-
  The recurrent cell's stored value read at one index.

  The two gate pre-activations are products of a 5000 × 64 array with a 64 × 192 array, accumulated from zero, plus a
  bias row; the cell reads their three 64-column thirds, applies the logistic function to two sums, the hyperbolic
  tangent to a third, and blends the result with the old state.  Read at row r and column j this is the function
  `cell` of the specification applied to the two rows of pre-activations.
-/
import proofs.«113602_j18159121727862_1_alg».proof.Proof.Gen.KernelIdeal.Skeleton
import proofs.«113602_j18159121727862_1_alg».proof.Proof.Spec
import Idealize.ShloMosaic.Lib.ValueIdx
import Idealize.ShloMosaic.Lib.Pipeline.Value
import Idealize.ShloMosaic.PureOps.Ideal.Laws

noncomputable section

namespace Cert.KernelIdeal.CellBlock

open Cert.KernelIdeal Cert.KernelIdeal.Gen Cert.GcnGru Idealize.ShloMosaic Idealize.ShloMosaic.ValueIdx

/-! ## The operand indices of the gate products

The product contracts the left operand's second axis with the right operand's first. At result index (r, q) and
contraction coordinate k the left operand is read at (r, k) and the right one at (k, q). -/

theorem lhs_0 (i : S5000x192.Idx) (c : (dot_S5000x64_S64x192_S5000x192_1_0_0_1_n_n).contr.Idx) :
    ((dot_S5000x64_S64x192_S5000x192_1_0_0_1_n_n).lhsIdx i c 0).val = (i 0).val := by
  unfold DotDims.lhsIdx
  rw [dif_neg (show ¬(0 : Fin S5000x64.rank) ∈ (dot_S5000x64_S64x192_S5000x192_1_0_0_1_n_n).lhsBatch by decide),
    dif_pos (show (0 : Fin S5000x64.rank) ∈ (dot_S5000x64_S64x192_S5000x192_1_0_0_1_n_n).lhsNonContracting by decide)]
  rfl
theorem lhs_1 (i : S5000x192.Idx) (c : (dot_S5000x64_S64x192_S5000x192_1_0_0_1_n_n).contr.Idx) :
    ((dot_S5000x64_S64x192_S5000x192_1_0_0_1_n_n).lhsIdx i c 1).val = (c ⟨0, by decide⟩).val :=
  (dot_S5000x64_S64x192_S5000x192_1_0_0_1_n_n).lhsIdx_val_of_single rfl i c
theorem rhs_0 (i : S5000x192.Idx) (c : (dot_S5000x64_S64x192_S5000x192_1_0_0_1_n_n).contr.Idx) :
    ((dot_S5000x64_S64x192_S5000x192_1_0_0_1_n_n).rhsIdx i c 0).val = (c ⟨0, by decide⟩).val :=
  (dot_S5000x64_S64x192_S5000x192_1_0_0_1_n_n).rhsIdx_val_of_single rfl i c
theorem rhs_1 (i : S5000x192.Idx) (c : (dot_S5000x64_S64x192_S5000x192_1_0_0_1_n_n).contr.Idx) :
    ((dot_S5000x64_S64x192_S5000x192_1_0_0_1_n_n).rhsIdx i c 1).val = (i 1).val := by
  unfold DotDims.rhsIdx
  rw [dif_neg (show ¬(1 : Fin S64x192.rank) ∈ (dot_S5000x64_S64x192_S5000x192_1_0_0_1_n_n).rhsBatch by decide),
    dif_pos (show (1 : Fin S64x192.rank) ∈ (dot_S5000x64_S64x192_S5000x192_1_0_0_1_n_n).rhsNonContracting by decide)]
  rfl

/-- A product of a 5000 × 64 array with a 64 × 192 array, accumulated from zero, read at row r and column q: the sum
    over the 64 shared coordinates of the row's entries times the column's. -/
theorem mm_apply (a : FVec Ideal S5000x64 .bf16) (b : FVec Ideal S64x192 .bf16) (r : Fin 5000) (q : Fin 192) :
    matmul dot_S5000x64_S64x192_S5000x192_1_0_0_1_n_n none a b (constant S5000x192 .f32 0x00000000#32) (ix2 r q)
      = ∑ k : Fin 64, a (ix2 r k) * b (ix2 k q) := by
  refine (Ideal.matmul_constant_zero_apply dot_S5000x64_S64x192_S5000x192_1_0_0_1_n_n none a b (ix2 r q)).trans ?_
  rw [← Equiv.sum_comp (contrEquiv1 dot_S5000x64_S64x192_S5000x192_1_0_0_1_n_n 64 rfl rfl).symm]
  refine Finset.sum_congr rfl fun k _ => ?_
  have hk := contrEquiv1_symm_val dot_S5000x64_S64x192_S5000x192_1_0_0_1_n_n 64 rfl rfl k
  have el : (dot_S5000x64_S64x192_S5000x192_1_0_0_1_n_n).lhsIdx (ix2 r q) ((contrEquiv1 dot_S5000x64_S64x192_S5000x192_1_0_0_1_n_n 64 rfl rfl).symm k) = ix2 r k :=
    funext fun c => Fin.ext (by
      match c with
      | ⟨0, _⟩ => exact lhs_0 _ _
      | ⟨1, _⟩ => exact (lhs_1 _ _).trans hk)
  have er : (dot_S5000x64_S64x192_S5000x192_1_0_0_1_n_n).rhsIdx (ix2 r q) ((contrEquiv1 dot_S5000x64_S64x192_S5000x192_1_0_0_1_n_n 64 rfl rfl).symm k) = ix2 k q :=
    funext fun c => Fin.ext (by
      match c with
      | ⟨0, _⟩ => exact (rhs_0 _ _).trans hk
      | ⟨1, _⟩ => exact rhs_1 _ _)
  rw [el, er]

/-! ## The two gate pre-activations at an index -/

/-- A 1 × 192 row broadcast over 5000 rows reads the row's entry in the same column. -/
theorem bias_apply (v : FVec Ideal S1x192 .f32) (r : Fin 5000) (q : Fin 192) :
    broadcastTo S5000x192 v broadcasts_S1x192_S5000x192 (ix2 r q) = v (ix2 (0 : Fin 1) q) :=
  broadcastTo_apply v broadcasts_S1x192_S5000x192 (ix2 r q) (ix2 (0 : Fin 1) q) (fun c => match c with
    | ⟨0, _⟩ => rfl
    | ⟨1, _⟩ => rfl)

/-- A 1 × 64 row broadcast over 5000 rows reads the row's entry in the same column. -/
theorem row_apply (v : FVec Ideal S1x64 .f32) (r : Fin 5000) (k : Fin 64) :
    broadcastTo S5000x64 v broadcasts_S1x64_S5000x64 (ix2 r k) = v (ix2 (0 : Fin 1) k) :=
  broadcastTo_apply v broadcasts_S1x64_S5000x64 (ix2 r k) (ix2 (0 : Fin 1) k) (fun c => match c with
    | ⟨0, _⟩ => rfl
    | ⟨1, _⟩ => rfl)

/-- A 5000 × 1 column broadcast over 64 columns reads the column's entry in the same row. -/
theorem col_apply (v : FVec Ideal S5000x1 .f32) (r : Fin 5000) (k : Fin 64) :
    broadcastTo S5000x64 v broadcasts_S5000x1_S5000x64 (ix2 r k) = v (ix2 r (0 : Fin 1)) :=
  broadcastTo_apply v broadcasts_S5000x1_S5000x64 (ix2 r k) (ix2 r (0 : Fin 1)) (fun c => match c with
    | ⟨0, _⟩ => rfl
    | ⟨1, _⟩ => rfl)

/-- The input gates' pre-activation at row r, column q: the graph convolution's row against column q of the weight,
    plus the bias. -/
theorem gi_apply (v0 : Vec Ideal S5000x1 .f32) (v3 v5 : Vec Ideal S5000x64 .f32) (v10 : Vec Ideal S1x64 .f32)
    (v17 : Vec Ideal S64x192 .f32) (v21 : Vec Ideal S1x192 .f32) (r : Fin 5000) (q : Fin 192) :
    k1_pay2 (F := Ideal) v0 v3 v5 v10 v17 v21 (ix2 r q)
      = (∑ k : Fin 64, ((v3 (ix2 r k) + (v0 (ix2 r (0 : Fin 1)) * v0 (ix2 r (0 : Fin 1))) * v5 (ix2 r k)) + v10 (ix2 (0 : Fin 1) k)) * v17 (ix2 k q)) + v21 (ix2 (0 : Fin 1) q) := by
  unfold k1_pay2
  simp only [shapeCast_self]
  refine congrArg₂ (· + ·) ?_ (bias_apply v21 r q)
  refine (mm_apply _ _ r q).trans ?_
  refine Finset.sum_congr rfl fun k _ => ?_
  refine congrArg₂ (· * ·) ?_ rfl
  refine congrArg₂ (· + ·) ?_ (row_apply v10 r k)
  refine congrArg₂ (· + ·) rfl ?_
  refine congrArg₂ (· * ·) ?_ rfl
  exact col_apply (mulf v0 v0) r k

/-- The hidden gates' pre-activation at row r, column q: the old state's row against column q of the weight, plus
    the bias. -/
theorem gh_apply (v14 : Vec Ideal S5000x64 .f32) (v25 : Vec Ideal S64x192 .f32) (v29 : Vec Ideal S1x192 .f32)
    (r : Fin 5000) (q : Fin 192) :
    k1_pay3 (F := Ideal) v14 v25 v29 (ix2 r q)
      = (∑ k : Fin 64, v14 (ix2 r k) * v25 (ix2 k q)) + v29 (ix2 (0 : Fin 1) q) := by
  unfold k1_pay3
  simp only [shapeCast_self]
  refine congrArg₂ (· + ·) ?_ (bias_apply v29 r q)
  exact mm_apply _ _ r q

/-! ## The three thirds of a row of gate pre-activations -/

/-- Columns 0 … 63 of a 5000 × 192 array. -/
theorem third0_apply (x : FVec Ideal S5000x192 .f32) (r : Fin 5000) (j : Fin 64) :
    extractStridedSlice S5000x64 ![0, 0] x slices_S5000x192_o0_0_S5000x64 (ix2 r j) = x (ix2 r (c0 j)) :=
  extractStridedSlice_apply ![0, 0] x slices_S5000x192_o0_0_S5000x64 (ix2 r j) (ix2 r (c0 j)) (fun c => match c with
    | ⟨0, _⟩ => by show r.val = 0 + r.val; omega
    | ⟨1, _⟩ => by show j.val = 0 + j.val; omega)

/-- Columns 64 … 127 of a 5000 × 192 array. -/
theorem third1_apply (x : FVec Ideal S5000x192 .f32) (r : Fin 5000) (j : Fin 64) :
    extractStridedSlice S5000x64 ![0, 64] x slices_S5000x192_o0_64_S5000x64 (ix2 r j) = x (ix2 r (c1 j)) :=
  extractStridedSlice_apply ![0, 64] x slices_S5000x192_o0_64_S5000x64 (ix2 r j) (ix2 r (c1 j)) (fun c => match c with
    | ⟨0, _⟩ => by show r.val = 0 + r.val; omega
    | ⟨1, _⟩ => by show 64 + j.val = 64 + j.val; rfl)

/-- Columns 128 … 191 of a 5000 × 192 array. -/
theorem third2_apply (x : FVec Ideal S5000x192 .f32) (r : Fin 5000) (j : Fin 64) :
    extractStridedSlice S5000x64 ![0, 128] x slices_S5000x192_o0_128_S5000x64 (ix2 r j) = x (ix2 r (c2 j)) :=
  extractStridedSlice_apply ![0, 128] x slices_S5000x192_o0_128_S5000x64 (ix2 r j) (ix2 r (c2 j)) (fun c => match c with
    | ⟨0, _⟩ => by show r.val = 0 + r.val; omega
    | ⟨1, _⟩ => by show 128 + j.val = 128 + j.val; rfl)

/-! ## The gating arithmetic at an index -/

/-- The cell's arithmetic on six arrays of gate pre-activations and the old state, read at one index: the logistic
    function is the one spelt with the float word of 1.0. -/
theorem gating_apply (h a b c d e f : FVec Ideal S5000x64 .f32) (i : S5000x64.Idx) :
    k1_pay1 (F := Ideal) h a b c d e f i
      = (one - Cert.GcnGru.sig (b i + e i)) * Ideal.tanh (c i + Cert.GcnGru.sig (a i + d i) * f i)
          + Cert.GcnGru.sig (b i + e i) * h i := by
  unfold k1_pay1
  show (one - Ideal.logistic (b i + e i)) * Ideal.tanh (c i + Ideal.logistic (a i + d i) * f i)
      + Ideal.logistic (b i + e i) * h i = _
  rw [logistic_eq_sig, logistic_eq_sig]

/-! ## The cell's stored value at an index -/

/-- The cell's stored value at row r, column j is the specification's cell on the two rows of gate pre-activations
    (each a sum over the 64 hidden features plus a bias) and the old state's entry. -/
theorem cell_payload_apply (v0 : Vec Ideal S5000x1 .f32) (v3 v5 : Vec Ideal S5000x64 .f32) (v10 : Vec Ideal S1x64 .f32)
    (v14 : Vec Ideal S5000x64 .f32) (v17 : Vec Ideal S64x192 .f32) (v21 : Vec Ideal S1x192 .f32)
    (v25 : Vec Ideal S64x192 .f32) (v29 : Vec Ideal S1x192 .f32) (r : Fin 5000) (j : Fin 64) :
    k1_pay1 (F := Ideal) v14 (k1_pay4 v0 v3 v5 v10 v17 v21) (k1_pay5 v0 v3 v5 v10 v17 v21) (k1_pay6 v0 v3 v5 v10 v17 v21)
        (k1_pay7 v14 v25 v29) (k1_pay8 v14 v25 v29) (k1_pay9 v14 v25 v29) (ix2 r j)
      = cell (fun q => (∑ k : Fin 64, ((v3 (ix2 r k) + (v0 (ix2 r (0 : Fin 1)) * v0 (ix2 r (0 : Fin 1))) * v5 (ix2 r k)) + v10 (ix2 (0 : Fin 1) k)) * v17 (ix2 k q)) + v21 (ix2 (0 : Fin 1) q))
             (fun q => (∑ k : Fin 64, v14 (ix2 r k) * v25 (ix2 k q)) + v29 (ix2 (0 : Fin 1) q))
             (v14 (ix2 r j)) j := by
  refine (gating_apply _ _ _ _ _ _ _ (ix2 r j)).trans ?_
  unfold k1_pay4 k1_pay5 k1_pay6 k1_pay7 k1_pay8 k1_pay9 cell
  rw [third0_apply, third1_apply, third2_apply, third0_apply, third1_apply, third2_apply]
  simp only [gi_apply, gh_apply]

end Cert.KernelIdeal.CellBlock

end
-- ==== Proof.CellReads.lean ====
/-
  The recurrent-cell region's windows read at an index, and the cover of its result.

  The grid has ten points.  Point t reads rows 5000 t … 5000 t + 4999 of the neighbourhood sum, of the projection, of
  the inverse square-root degrees and of the old state, the whole bias rows and the whole transposed weights, and
  writes back rows 5000 t … 5000 t + 4999 of the result: the ten row blocks tile the 50000 rows.
-/
import proofs.«113602_j18159121727862_1_alg».proof.Proof.Gen.KernelIdeal.Frame
import Idealize.ShloMosaic.Lib.Pipeline.Value
import Idealize.ShloMosaic.Lib.ValueIdx

set_option maxRecDepth 16384

noncomputable section

namespace Cert.KernelIdeal.CellReads

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the four node arrays and the result move down one row block per point, the bias rows
    and the weights stay. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = t.val ∧ win1_9.index t (1 : Fin 2) = 0 :=
  (by decide +kernel : ∀ t : Fin grid1.N, _)

/-- The neighbourhood sum's block at point t is rows 5000 t … of the array as the region finds it. -/
theorem blk0_apply (c : Dev nD) (t : Fin cfg1.N) (r : Fin 5000) (k : Fin 64) (i : S50000x64.Idx)
    (h0 : (i 0).val = t.val * 5000 + r.val) (h1 : (i 1).val = k.val) :
    (iblk1 V c 0 t : Vec Ideal S5000x64 .f32) (ix2 r k) = (V c main_v40 : S50000x64.Idx → Elt Ideal .f32) i := by
  obtain ⟨e0, e1, -⟩ := idx_facts t
  unfold iblk1
  rw [View.read_apply]
  show V c main_v40 _ = V c main_v40 _
  congr 1
  funext a
  apply Fin.ext
  match a with
  | ⟨0, _⟩ => show win1_0.index t 0 * 5000 + 1 * r.val = (i 0).val; rw [e0, h0]; omega
  | ⟨1, _⟩ => show win1_0.index t 1 * 64 + 1 * k.val = (i 1).val; rw [e1, h1]; omega

/-- The projection's block at point t is rows 5000 t … of the array as the region finds it. -/
theorem blk1_apply (c : Dev nD) (t : Fin cfg1.N) (r : Fin 5000) (k : Fin 64) (i : S50000x64.Idx)
    (h0 : (i 0).val = t.val * 5000 + r.val) (h1 : (i 1).val = k.val) :
    (iblk1 V c 1 t : Vec Ideal S5000x64 .f32) (ix2 r k) = (V c main_v11 : S50000x64.Idx → Elt Ideal .f32) i := by
  obtain ⟨-, -, e0, e1, -⟩ := idx_facts t
  unfold iblk1
  rw [View.read_apply]
  show V c main_v11 _ = V c main_v11 _
  congr 1
  funext a
  apply Fin.ext
  match a with
  | ⟨0, _⟩ => show win1_1.index t 0 * 5000 + 1 * r.val = (i 0).val; rw [e0, h0]; omega
  | ⟨1, _⟩ => show win1_1.index t 1 * 64 + 1 * k.val = (i 1).val; rw [e1, h1]; omega

/-- The old state's block at point t is rows 5000 t … of the array as the region finds it. -/
theorem blk4_apply (c : Dev nD) (t : Fin cfg1.N) (r : Fin 5000) (k : Fin 64) (i : S50000x64.Idx)
    (h0 : (i 0).val = t.val * 5000 + r.val) (h1 : (i 1).val = k.val) :
    (iblk1 V c 4 t : Vec Ideal S5000x64 .f32) (ix2 r k) = (V c main_arg9 : S50000x64.Idx → Elt Ideal .f32) i := by
  obtain ⟨-, -, -, -, -, -, -, -, e0, e1, -⟩ := idx_facts t
  unfold iblk1
  rw [View.read_apply]
  show V c main_arg9 _ = V c main_arg9 _
  congr 1
  funext a
  apply Fin.ext
  match a with
  | ⟨0, _⟩ => show win1_4.index t 0 * 5000 + 1 * r.val = (i 0).val; rw [e0, h0]; omega
  | ⟨1, _⟩ => show win1_4.index t 1 * 64 + 1 * k.val = (i 1).val; rw [e1, h1]; omega

/-- The inverse square-root degrees' block at point t is rows 5000 t … of the one-column array as the region finds it. -/
theorem blk2_apply (c : Dev nD) (t : Fin cfg1.N) (r : Fin 5000) (i : S50000x1.Idx) (h0 : (i 0).val = t.val * 5000 + r.val) :
    (iblk1 V c 2 t : Vec Ideal S5000x1 .f32) (ix2 r (0 : Fin 1)) = (V c main_v41 : S50000x1.Idx → Elt Ideal .f32) i := by
  obtain ⟨-, -, -, -, e0, e1, -⟩ := idx_facts t
  have h1 : (i 1).val = 0 := by have h : (i 1).val < 1 := (i 1).isLt; omega
  unfold iblk1
  rw [View.read_apply]
  show V c main_v41 _ = V c main_v41 _
  congr 1
  funext a
  apply Fin.ext
  match a with
  | ⟨0, _⟩ => show win1_2.index t 0 * 5000 + 1 * r.val = (i 0).val; rw [e0, h0]; omega
  | ⟨1, _⟩ => show win1_2.index t 1 * 1 + 1 * 0 = (i 1).val; rw [e1, h1]

/-- The graph convolution's bias row is read whole at every point. -/
theorem blk3_apply (c : Dev nD) (t : Fin cfg1.N) (k : Fin 64) :
    (iblk1 V c 3 t : Vec Ideal S1x64 .f32) (ix2 (0 : Fin 1) k) = (V c main_v42 : S1x64.Idx → Elt Ideal .f32) (ix2 (0 : Fin 1) k) := by
  obtain ⟨-, -, -, -, -, -, e0, e1, -⟩ := idx_facts t
  unfold iblk1
  rw [View.read_apply]
  show V c main_v42 _ = V c main_v42 _
  congr 1
  funext a
  apply Fin.ext
  match a with
  | ⟨0, _⟩ => show win1_3.index t 0 * 1 + 1 * 0 = 0; rw [e0]
  | ⟨1, _⟩ => show win1_3.index t 1 * 64 + 1 * k.val = k.val; rw [e1]; omega

/-- The input gates' transposed weight is read whole at every point. -/
theorem blk5_apply (c : Dev nD) (t : Fin cfg1.N) (k : Fin 64) (q : Fin 192) :
    (iblk1 V c 5 t : Vec Ideal S64x192 .f32) (ix2 k q) = (V c main_v43 : S64x192.Idx → Elt Ideal .f32) (ix2 k q) := by
  obtain ⟨-, -, -, -, -, -, -, -, -, -, e0, e1, -⟩ := idx_facts t
  unfold iblk1
  rw [View.read_apply]
  show V c main_v43 _ = V c main_v43 _
  congr 1
  funext a
  apply Fin.ext
  match a with
  | ⟨0, _⟩ => show win1_5.index t 0 * 64 + 1 * k.val = k.val; rw [e0]; omega
  | ⟨1, _⟩ => show win1_5.index t 1 * 192 + 1 * q.val = q.val; rw [e1]; omega

/-- The hidden gates' transposed weight is read whole at every point. -/
theorem blk6_apply (c : Dev nD) (t : Fin cfg1.N) (k : Fin 64) (q : Fin 192) :
    (iblk1 V c 6 t : Vec Ideal S64x192 .f32) (ix2 k q) = (V c main_v44 : S64x192.Idx → Elt Ideal .f32) (ix2 k q) := by
  obtain ⟨-, -, -, -, -, -, -, -, -, -, -, -, e0, e1, -⟩ := idx_facts t
  unfold iblk1
  rw [View.read_apply]
  show V c main_v44 _ = V c main_v44 _
  congr 1
  funext a
  apply Fin.ext
  match a with
  | ⟨0, _⟩ => show win1_6.index t 0 * 64 + 1 * k.val = k.val; rw [e0]; omega
  | ⟨1, _⟩ => show win1_6.index t 1 * 192 + 1 * q.val = q.val; rw [e1]; omega

/-- The input gates' bias row is read whole at every point. -/
theorem blk7_apply (c : Dev nD) (t : Fin cfg1.N) (q : Fin 192) :
    (iblk1 V c 7 t : Vec Ideal S1x192 .f32) (ix2 (0 : Fin 1) q) = (V c main_v45 : S1x192.Idx → Elt Ideal .f32) (ix2 (0 : Fin 1) q) := by
  obtain ⟨-, -, -, -, -, -, -, -, -, -, -, -, -, -, e0, e1, -⟩ := idx_facts t
  unfold iblk1
  rw [View.read_apply]
  show V c main_v45 _ = V c main_v45 _
  congr 1
  funext a
  apply Fin.ext
  match a with
  | ⟨0, _⟩ => show win1_7.index t 0 * 1 + 1 * 0 = 0; rw [e0]
  | ⟨1, _⟩ => show win1_7.index t 1 * 192 + 1 * q.val = q.val; rw [e1]; omega

/-- The hidden gates' bias row is read whole at every point. -/
theorem blk8_apply (c : Dev nD) (t : Fin cfg1.N) (q : Fin 192) :
    (iblk1 V c 8 t : Vec Ideal S1x192 .f32) (ix2 (0 : Fin 1) q) = (V c main_v46 : S1x192.Idx → Elt Ideal .f32) (ix2 (0 : Fin 1) q) := by
  obtain ⟨-, -, -, -, -, -, -, -, -, -, -, -, -, -, -, -, e0, e1, -⟩ := idx_facts t
  unfold iblk1
  rw [View.read_apply]
  show V c main_v46 _ = V c main_v46 _
  congr 1
  funext a
  apply Fin.ext
  match a with
  | ⟨0, _⟩ => show win1_8.index t 0 * 1 + 1 * 0 = 0; rw [e0]
  | ⟨1, _⟩ => show win1_8.index t 1 * 192 + 1 * q.val = q.val; rw [e1]; omega

/-- Entry (r, j) of the result's block at point t is entry (5000 t + r, j) of the result. -/
theorem emb9 (t : Fin cfg1.N) (r : Fin 5000) (j : Fin 64) (n : Fin 50000) (hn : n.val = t.val * 5000 + r.val) :
    ((cfg1.win 9).blk t).view.emb (ix2 r j) = (ix2 n j : S50000x64.Idx) := by
  obtain ⟨-, -, -, -, -, -, -, -, -, -, -, -, -, -, -, -, -, -, e0, e1⟩ := idx_facts t
  funext a
  apply Fin.ext
  match a with
  | ⟨0, _⟩ => show win1_9.index t 0 * 5000 + 1 * r.val = n.val; rw [e0, hn]; omega
  | ⟨1, _⟩ => show win1_9.index t 1 * 64 + 1 * j.val = j.val; rw [e1]; omega

/-- An index is in point t's block iff each coordinate is in the block's range on its axis. -/
theorem mem_blk (t : Fin cfg1.N) (i : S50000x64.Idx) :
    i ∈ ((cfg1.win 9).blk t).view.set ↔ ∀ a : Fin 2, win1_9.index t a * S5000x64.size a ≤ (i a).val ∧ (i a).val < win1_9.index t a * S5000x64.size a + S5000x64.size a := by
  show i ∈ ((View.whole main_v47).slice (win1_9.rect t)).set ↔ _
  rw [View.set_slice_whole, Rect.mem_set_unit]
  exact Iff.rfl

/-- Every index of the result lies in some point's block: row n in the block of point n / 5000. -/
theorem cover (i : S50000x64.Idx) : ∃ t : Fin cfg1.N, (cfg1.win 9).flush t = true ∧ i ∈ ((cfg1.win 9).blk t).view.set := by
  have hi0 : (i 0).val < 50000 := (i 0).isLt
  have hi1 : (i 1).val < 64 := (i 1).isLt
  have hN : cfg1.N = 10 := N_1
  obtain ⟨t, ht⟩ : ∃ t : Fin cfg1.N, t.val = (i 0).val / 5000 := ⟨⟨(i 0).val / 5000, by rw [hN]; omega⟩, rfl⟩
  obtain ⟨-, -, -, -, -, -, -, -, -, -, -, -, -, -, -, -, -, -, e0, e1⟩ := idx_facts t
  refine ⟨t, flush1_9 t, ?_⟩
  rw [mem_blk]
  intro a
  match a with
  | ⟨0, _⟩ =>
    show win1_9.index t 0 * 5000 ≤ (i 0).val ∧ (i 0).val < win1_9.index t 0 * 5000 + 5000
    rw [e0, ht]; omega
  | ⟨1, _⟩ =>
    show win1_9.index t 1 * 64 ≤ (i 1).val ∧ (i 1).val < win1_9.index t 1 * 64 + 64
    rw [e1]; omega

end Cert.KernelIdeal.CellReads

end
-- ==== Proof.CellValue.lean ====
/-
  The recurrent-cell region's result array as ONE function of the arrays the region finds.  The grid has ten
  points; point t reads rows 5000 t … 5000 t + 4999 of the neighbourhood sum, the projection, the column of
  inverse square-root degrees and the old state, reads the two transposed weights and the three bias rows whole,
  and writes back rows 5000 t … 5000 t + 4999 of the result.  When the nine arrays the region finds are the
  reference's values of the same quantities, entry (n, j) of the array after the region is the reference's
  result at (n, j): the cell's payload at row r of block t is the specification's cell of the gate rows of node
  n = 5000 t + r, that is the specification's layer at (n, j), and the ten row blocks tile the 50000 rows.
-/
import proofs.«113602_j18159121727862_1_alg».proof.Proof.Gen.KernelIdeal.Frame
import proofs.«113602_j18159121727862_1_alg».proof.Proof.CellBlock
import proofs.«113602_j18159121727862_1_alg».proof.Proof.CellReads
import proofs.«113602_j18159121727862_1_alg».proof.Proof.RefLayer
import proofs.«113602_j18159121727862_1_alg».proof.Proof.Spec
import Idealize.ShloMosaic.Lib.Pipeline.Value
import Idealize.ShloMosaic.Lib.ValueIdx

set_option maxRecDepth 16384

noncomputable section

namespace Cert.KernelIdeal.CellValue

open Cert.KernelIdeal Cert.KernelIdeal.Gen Cert.GcnGru
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## What each block holds, read at a point of the block

Point t's row r is row n = 5000 t + r of the arrays that move with the grid; the weights and biases are whole at
every point.  Each block read is the array the region finds, and that array is the reference's value of the
same quantity, read through its layout (a broadcast or a transpose). -/

section Reads
variable (c : Dev nD) (t : Fin cfg1.N)

/-- The neighbourhood sum's block. -/
theorem rd_agg (x0 : (⟨Cert.ReferenceIdeal.S50000x128, .f32⟩ : BufTy).Contents (Elt Ideal)) (x1 : (⟨Cert.ReferenceIdeal.S2x800000, .i32⟩ : BufTy).Contents (Elt Ideal)) (x2 : (⟨Cert.ReferenceIdeal.S800000, .f32⟩ : BufTy).Contents (Elt Ideal)) (x3 : (⟨Cert.ReferenceIdeal.S64x128, .f32⟩ : BufTy).Contents (Elt Ideal))
    (h40 : V c main_v40 = Cert.ReferenceIdeal.Read.val_main_v40 (F := Ideal) x0 x1 x2 x3)
    (r : Fin 5000) (k : Fin 64) (n : Fin 50000) (hn : n.val = t.val * 5000 + r.val) :
    (iblk1 V c 0 t : Vec Ideal S5000x64 .f32) (ix2 r k) = Cert.ReferenceIdeal.Read.val_main_v40 (F := Ideal) x0 x1 x2 x3 (ix2 n k) :=
  (CellReads.blk0_apply V c t r k (ix2 n k) hn rfl).trans (congrFun h40 _)

/-- The projection's block. -/
theorem rd_xw (x0 : (⟨Cert.ReferenceIdeal.S50000x128, .f32⟩ : BufTy).Contents (Elt Ideal)) (x3 : (⟨Cert.ReferenceIdeal.S64x128, .f32⟩ : BufTy).Contents (Elt Ideal))
    (h11 : V c main_v11 = Cert.ReferenceIdeal.Read.val_main_v5 (F := Ideal) x0 x3)
    (r : Fin 5000) (k : Fin 64) (n : Fin 50000) (hn : n.val = t.val * 5000 + r.val) :
    (iblk1 V c 1 t : Vec Ideal S5000x64 .f32) (ix2 r k) = Cert.ReferenceIdeal.Read.val_main_v5 (F := Ideal) x0 x3 (ix2 n k) :=
  (CellReads.blk1_apply V c t r k (ix2 n k) hn rfl).trans (congrFun h11 _)

/-- The inverse square-root degrees arrive as a column [50000, 1]: entry (n, 0) is dinv n. -/
theorem rd_dinv (x1 : (⟨Cert.ReferenceIdeal.S2x800000, .i32⟩ : BufTy).Contents (Elt Ideal)) (x2 : (⟨Cert.ReferenceIdeal.S800000, .f32⟩ : BufTy).Contents (Elt Ideal))
    (h41 : V c main_v41 = broadcastInDim S50000x1 ![0] bcast_S50000_S50000x1_0 (Cert.ReferenceIdeal.Read.val_main_v11 (F := Ideal) x1 x2))
    (r : Fin 5000) (n : Fin 50000) (hn : n.val = t.val * 5000 + r.val) :
    (iblk1 V c 2 t : Vec Ideal S5000x1 .f32) (ix2 r (0 : Fin 1)) = Cert.ReferenceIdeal.Read.val_main_v11 (F := Ideal) x1 x2 (ix1 n) := by
  refine (CellReads.blk2_apply V c t r (ix2 n (0 : Fin 1)) hn).trans ((congrFun h41 _).trans ?_)
  exact broadcastInDim_apply _ bcast_S50000_S50000x1_0 _ (ix2 n (0 : Fin 1)) (ix1 n) (fun a => match a with
    | ⟨0, _⟩ => by show n.val = if (50000 : Nat) = 1 then 0 else n.val; rw [if_neg (by decide)])

/-- The convolution's bias arrives as a row [1, 64]: entry (0, k) is b_gcn k. -/
theorem rd_bg (x4 : (⟨Cert.ReferenceIdeal.S64, .f32⟩ : BufTy).Contents (Elt Ideal))
    (h42 : V c main_v42 = Cert.ReferenceIdeal.Read.val_main_v46 (F := Ideal) x4) (k : Fin 64) :
    (iblk1 V c 3 t : Vec Ideal S1x64 .f32) (ix2 (0 : Fin 1) k) = x4 (ix1 k) := by
  refine (CellReads.blk3_apply V c t k).trans ((congrFun h42 _).trans ?_)
  rw [Cert.ReferenceIdeal.Read.val_main_v46_apply]
  exact congrArg x4 (funext fun a => Fin.ext (by match a with | ⟨0, _⟩ => rfl))

/-- The old state's block. -/
theorem rd_h (x9 : (⟨Cert.ReferenceIdeal.S50000x64, .f32⟩ : BufTy).Contents (Elt Ideal))
    (h9 : V c main_arg9 = x9)
    (r : Fin 5000) (k : Fin 64) (n : Fin 50000) (hn : n.val = t.val * 5000 + r.val) :
    (iblk1 V c 4 t : Vec Ideal S5000x64 .f32) (ix2 r k) = x9 (ix2 n k) :=
  (CellReads.blk4_apply V c t r k (ix2 n k) hn rfl).trans (congrFun h9 _)

/-- The input-side weight arrives transposed [64, 192]: entry (k, q) is W_ih (q, k). -/
theorem rd_wih (x5 : (⟨Cert.ReferenceIdeal.S192x64, .f32⟩ : BufTy).Contents (Elt Ideal))
    (h43 : V c main_v43 = Cert.ReferenceIdeal.Read.val_main_v49 (F := Ideal) x5) (k : Fin 64) (q : Fin 192) :
    (iblk1 V c 5 t : Vec Ideal S64x192 .f32) (ix2 k q) = x5 (ix2 q k) := by
  refine (CellReads.blk5_apply V c t k q).trans ((congrFun h43 _).trans ?_)
  rw [Cert.ReferenceIdeal.Read.val_main_v49_apply]
  exact congrArg x5 (funext fun a => Fin.ext (by match a with | ⟨0, _⟩ => rfl | ⟨1, _⟩ => rfl))

/-- The state-side weight arrives transposed [64, 192]: entry (k, q) is W_hh (q, k). -/
theorem rd_whh (x6 : (⟨Cert.ReferenceIdeal.S192x64, .f32⟩ : BufTy).Contents (Elt Ideal))
    (h44 : V c main_v44 = Cert.ReferenceIdeal.Read.val_main_v54 (F := Ideal) x6) (k : Fin 64) (q : Fin 192) :
    (iblk1 V c 6 t : Vec Ideal S64x192 .f32) (ix2 k q) = x6 (ix2 q k) := by
  refine (CellReads.blk6_apply V c t k q).trans ((congrFun h44 _).trans ?_)
  rw [Cert.ReferenceIdeal.Read.val_main_v54_apply]
  exact congrArg x6 (funext fun a => Fin.ext (by match a with | ⟨0, _⟩ => rfl | ⟨1, _⟩ => rfl))

/-- The input-side bias arrives as a row [1, 192]: entry (0, q) is b_ih q. -/
theorem rd_bih (x7 : (⟨Cert.ReferenceIdeal.S192, .f32⟩ : BufTy).Contents (Elt Ideal))
    (h45 : V c main_v45 = Cert.ReferenceIdeal.Read.val_main_v51 (F := Ideal) x7) (q : Fin 192) :
    (iblk1 V c 7 t : Vec Ideal S1x192 .f32) (ix2 (0 : Fin 1) q) = x7 (ix1 q) := by
  refine (CellReads.blk7_apply V c t q).trans ((congrFun h45 _).trans ?_)
  rw [Cert.ReferenceIdeal.Read.val_main_v51_apply]
  exact congrArg x7 (funext fun a => Fin.ext (by match a with | ⟨0, _⟩ => rfl))

/-- The state-side bias arrives as a row [1, 192]: entry (0, q) is b_hh q. -/
theorem rd_bhh (x8 : (⟨Cert.ReferenceIdeal.S192, .f32⟩ : BufTy).Contents (Elt Ideal))
    (h46 : V c main_v46 = Cert.ReferenceIdeal.Read.val_main_v56 (F := Ideal) x8) (q : Fin 192) :
    (iblk1 V c 8 t : Vec Ideal S1x192 .f32) (ix2 (0 : Fin 1) q) = x8 (ix1 q) := by
  refine (CellReads.blk8_apply V c t q).trans ((congrFun h46 _).trans ?_)
  rw [Cert.ReferenceIdeal.Read.val_main_v56_apply]
  exact congrArg x8 (funext fun a => Fin.ext (by match a with | ⟨0, _⟩ => rfl))

end Reads

/-! ## The cell's payload at a point of a block -/

/-- At row r, feature j of point t's block the cell's payload is the specification's cell of the two gate rows of
    node n = 5000 t + r, which is the specification's layer at (n, j), which is the reference's result there. -/
theorem payload_eq (c : Dev nD)
    (x0 : (⟨Cert.ReferenceIdeal.S50000x128, .f32⟩ : BufTy).Contents (Elt Ideal)) (x1 : (⟨Cert.ReferenceIdeal.S2x800000, .i32⟩ : BufTy).Contents (Elt Ideal)) (x2 : (⟨Cert.ReferenceIdeal.S800000, .f32⟩ : BufTy).Contents (Elt Ideal)) (x3 : (⟨Cert.ReferenceIdeal.S64x128, .f32⟩ : BufTy).Contents (Elt Ideal)) (x4 : (⟨Cert.ReferenceIdeal.S64, .f32⟩ : BufTy).Contents (Elt Ideal)) (x5 x6 : (⟨Cert.ReferenceIdeal.S192x64, .f32⟩ : BufTy).Contents (Elt Ideal)) (x7 x8 : (⟨Cert.ReferenceIdeal.S192, .f32⟩ : BufTy).Contents (Elt Ideal)) (x9 : (⟨Cert.ReferenceIdeal.S50000x64, .f32⟩ : BufTy).Contents (Elt Ideal))
    (h40 : V c main_v40 = Cert.ReferenceIdeal.Read.val_main_v40 (F := Ideal) x0 x1 x2 x3)
    (h11 : V c main_v11 = Cert.ReferenceIdeal.Read.val_main_v5 (F := Ideal) x0 x3)
    (h41 : V c main_v41 = broadcastInDim S50000x1 ![0] bcast_S50000_S50000x1_0 (Cert.ReferenceIdeal.Read.val_main_v11 (F := Ideal) x1 x2))
    (h42 : V c main_v42 = Cert.ReferenceIdeal.Read.val_main_v46 (F := Ideal) x4)
    (h9 : V c main_arg9 = x9)
    (h43 : V c main_v43 = Cert.ReferenceIdeal.Read.val_main_v49 (F := Ideal) x5)
    (h44 : V c main_v44 = Cert.ReferenceIdeal.Read.val_main_v54 (F := Ideal) x6)
    (h45 : V c main_v45 = Cert.ReferenceIdeal.Read.val_main_v51 (F := Ideal) x7)
    (h46 : V c main_v46 = Cert.ReferenceIdeal.Read.val_main_v56 (F := Ideal) x8)
    (t : Fin cfg1.N) (r : Fin 5000) (j : Fin 64) (n : Fin 50000) (hn : n.val = t.val * 5000 + r.val) :
    k1_pay1 (F := Ideal) (iblk1 V c 4 t)
      (k1_pay4 (iblk1 V c 2 t) (iblk1 V c 0 t) (iblk1 V c 1 t) (iblk1 V c 3 t) (iblk1 V c 5 t) (iblk1 V c 7 t))
      (k1_pay5 (iblk1 V c 2 t) (iblk1 V c 0 t) (iblk1 V c 1 t) (iblk1 V c 3 t) (iblk1 V c 5 t) (iblk1 V c 7 t))
      (k1_pay6 (iblk1 V c 2 t) (iblk1 V c 0 t) (iblk1 V c 1 t) (iblk1 V c 3 t) (iblk1 V c 5 t) (iblk1 V c 7 t))
      (k1_pay7 (iblk1 V c 4 t) (iblk1 V c 6 t) (iblk1 V c 8 t))
      (k1_pay8 (iblk1 V c 4 t) (iblk1 V c 6 t) (iblk1 V c 8 t))
      (k1_pay9 (iblk1 V c 4 t) (iblk1 V c 6 t) (iblk1 V c 8 t)) (ix2 r j)
      = Cert.ReferenceIdeal.Read.val_main_v86 (F := Ideal) x0 x1 x2 x3 x4 x5 x6 x7 x8 x9 (ix2 n j) := by
  refine (CellBlock.cell_payload_apply _ _ _ _ _ _ _ _ _ r j).trans ?_
  rw [Cert.ReferenceIdeal.RefLayer.ref_eq_layer]
  unfold layer
  refine congrFun (congr (congr (congrArg cell (funext fun q => ?_)) (funext fun q => ?_)) ?_) j
  · unfold gate gcn
    refine congrArg₂ (· + ·) (Finset.sum_congr rfl fun k _ => ?_) (rd_bih V c t x7 h45 q)
    rw [rd_agg V c t x0 x1 x2 x3 h40 r k n hn, rd_dinv V c t x1 x2 h41 r n hn, rd_xw V c t x0 x3 h11 r k n hn,
      rd_bg V c t x4 h42 k, rd_wih V c t x5 h43 k q]
  · unfold gate
    refine congrArg₂ (· + ·) (Finset.sum_congr rfl fun k _ => ?_) (rd_bhh V c t x8 h46 q)
    rw [rd_h V c t x9 h9 r k n hn, rd_whh V c t x6 h44 k q]
  · exact rd_h V c t x9 h9 r j n hn

/-! ## What a point writes back -/

/-- WHAT POINT t WRITES BACK is block t of any whole-array function G that the cell's payload agrees with on the
    block's rows: the body's one store fills the window's buffer with the payload, and the window is not cut. -/
theorem flushed_eq_of (c : Dev nD) (t : Fin cfg1.N) (G : S50000x64.Idx → Elt Ideal .f32)
    (hG : ∀ (r : Fin 5000) (j : Fin 64) (n : Fin 50000), n.val = t.val * 5000 + r.val →
      k1_pay1 (F := Ideal) (iblk1 V c 4 t)
      (k1_pay4 (iblk1 V c 2 t) (iblk1 V c 0 t) (iblk1 V c 1 t) (iblk1 V c 3 t) (iblk1 V c 5 t) (iblk1 V c 7 t))
      (k1_pay5 (iblk1 V c 2 t) (iblk1 V c 0 t) (iblk1 V c 1 t) (iblk1 V c 3 t) (iblk1 V c 5 t) (iblk1 V c 7 t))
      (k1_pay6 (iblk1 V c 2 t) (iblk1 V c 0 t) (iblk1 V c 1 t) (iblk1 V c 3 t) (iblk1 V c 5 t) (iblk1 V c 7 t))
      (k1_pay7 (iblk1 V c 4 t) (iblk1 V c 6 t) (iblk1 V c 8 t))
      (k1_pay8 (iblk1 V c 4 t) (iblk1 V c 6 t) (iblk1 V c 8 t))
      (k1_pay9 (iblk1 V c 4 t) (iblk1 V c 6 t) (iblk1 V c 8 t)) (ix2 r j) = G (ix2 n j)) :
    (dat1 V c).flushed 9 t = ((cfg1.win 9).blk t).view.read (Elt Ideal) G := by
  show (cfg1.win 9).cut (grid1.coords t) ((dat1 V c).after 9 t) = _
  rw [after1_9]
  unfold out1_9
  rw [View.canon_unit_zero CellReads.hz]
  simp only [View.ld_unit_zero (S := S5000x1) CellReads.hz, View.ld_unit_zero (S := S5000x64) CellReads.hz,
    View.ld_unit_zero (S := S1x64) CellReads.hz, View.ld_unit_zero (S := S64x192) CellReads.hz,
    View.ld_unit_zero (S := S1x192) CellReads.hz]
  funext y
  obtain ⟨r, j, rfl⟩ : ∃ (r : Fin 5000) (j : Fin 64), y = ix2 r j := ⟨y 0, y 1, eq_ix2 y⟩
  have hN : cfg1.N = 10 := N_1
  have ht : t.val < 10 := lt_of_lt_of_eq t.isLt hN
  obtain ⟨n, hn⟩ : ∃ n : Fin 50000, n.val = t.val * 5000 + r.val :=
    ⟨⟨t.val * 5000 + r.val, by have hr := r.isLt; omega⟩, rfl⟩
  show k1_pay1 (F := Ideal) (iblk1 V c 4 t)
      (k1_pay4 (iblk1 V c 2 t) (iblk1 V c 0 t) (iblk1 V c 1 t) (iblk1 V c 3 t) (iblk1 V c 5 t) (iblk1 V c 7 t))
      (k1_pay5 (iblk1 V c 2 t) (iblk1 V c 0 t) (iblk1 V c 1 t) (iblk1 V c 3 t) (iblk1 V c 5 t) (iblk1 V c 7 t))
      (k1_pay6 (iblk1 V c 2 t) (iblk1 V c 0 t) (iblk1 V c 1 t) (iblk1 V c 3 t) (iblk1 V c 5 t) (iblk1 V c 7 t))
      (k1_pay7 (iblk1 V c 4 t) (iblk1 V c 6 t) (iblk1 V c 8 t))
      (k1_pay8 (iblk1 V c 4 t) (iblk1 V c 6 t) (iblk1 V c 8 t))
      (k1_pay9 (iblk1 V c 4 t) (iblk1 V c 6 t) (iblk1 V c 8 t)) (ix2 r j) = G (((cfg1.win 9).blk t).view.emb (ix2 r j))
  rw [CellReads.emb9 t r j n hn]
  exact hG r j n hn

/-! ## The array after the region -/

/-- THE ARRAY after the region is the reference's result: every point writes back its block of it, and the ten row
    blocks tile the 50000 rows. -/
theorem final (c : Dev nD)
    (x0 : (⟨Cert.ReferenceIdeal.S50000x128, .f32⟩ : BufTy).Contents (Elt Ideal)) (x1 : (⟨Cert.ReferenceIdeal.S2x800000, .i32⟩ : BufTy).Contents (Elt Ideal)) (x2 : (⟨Cert.ReferenceIdeal.S800000, .f32⟩ : BufTy).Contents (Elt Ideal)) (x3 : (⟨Cert.ReferenceIdeal.S64x128, .f32⟩ : BufTy).Contents (Elt Ideal)) (x4 : (⟨Cert.ReferenceIdeal.S64, .f32⟩ : BufTy).Contents (Elt Ideal)) (x5 x6 : (⟨Cert.ReferenceIdeal.S192x64, .f32⟩ : BufTy).Contents (Elt Ideal)) (x7 x8 : (⟨Cert.ReferenceIdeal.S192, .f32⟩ : BufTy).Contents (Elt Ideal)) (x9 : (⟨Cert.ReferenceIdeal.S50000x64, .f32⟩ : BufTy).Contents (Elt Ideal))
    (h40 : V c main_v40 = Cert.ReferenceIdeal.Read.val_main_v40 (F := Ideal) x0 x1 x2 x3)
    (h11 : V c main_v11 = Cert.ReferenceIdeal.Read.val_main_v5 (F := Ideal) x0 x3)
    (h41 : V c main_v41 = broadcastInDim S50000x1 ![0] bcast_S50000_S50000x1_0 (Cert.ReferenceIdeal.Read.val_main_v11 (F := Ideal) x1 x2))
    (h42 : V c main_v42 = Cert.ReferenceIdeal.Read.val_main_v46 (F := Ideal) x4)
    (h9 : V c main_arg9 = x9)
    (h43 : V c main_v43 = Cert.ReferenceIdeal.Read.val_main_v49 (F := Ideal) x5)
    (h44 : V c main_v44 = Cert.ReferenceIdeal.Read.val_main_v54 (F := Ideal) x6)
    (h45 : V c main_v45 = Cert.ReferenceIdeal.Read.val_main_v51 (F := Ideal) x7)
    (h46 : V c main_v46 = Cert.ReferenceIdeal.Read.val_main_v56 (F := Ideal) x8) :
    (dat1 V c).arrAt 9 cfg1.N = Cert.ReferenceIdeal.Read.val_main_v86 (F := Ideal) x0 x1 x2 x3 x4 x5 x6 x7 x8 x9 :=
  (dat1 V c).arrAt_eq_of_cover 9 (Cert.ReferenceIdeal.Read.val_main_v86 (F := Ideal) x0 x1 x2 x3 x4 x5 x6 x7 x8 x9)
    (fun t _ => flushed_eq_of V c t _
      (payload_eq V c x0 x1 x2 x3 x4 x5 x6 x7 x8 x9 h40 h11 h41 h42 h9 h43 h44 h45 h46 t))
    CellReads.cover

end Cert.KernelIdeal.CellValue

end
-- ==== Proof.lean ====
/-
  The certificate's claim for a graph-convolution layer followed by a gated recurrent cell (50000 nodes, 800000
  edges, 128 input and 64 hidden features): the three programs run and leave their arguments unchanged; the
  idealized kernel is the kernel's own text read on the extended reals (the ideal pass rewrote nothing); and the
  idealized kernel and the idealized reference, from memories agreeing on the arguments, end with equal result
  arrays as extended reals, element by element.

  Why the two results are equal.  Both programs compute, for node n and feature j,
      out n j = (1 − z) · tanh (gi₂ + r · gh₂) + z · h n j,     r = σ (gi₀ + gh₀),  z = σ (gi₁ + gh₁),
  with gi = gcn · W_ihᵀ + b_ih and gh = h · W_hhᵀ + b_hh cut into three blocks of 64 columns, σ t = 1 / (1 + exp (−t)),
  and gcn n k = (agg n k + (dinv n · dinv n) · xw n k) + b_gcn k, xw = x · W_gcnᵀ.  The kernel computes xw in a first
  region, ten row blocks of 5000 nodes, each a product into a zero accumulator — entry by entry the same finite sum
  as the reference's product; the inverse square-root degrees dinv and the neighbourhood sum agg (a gather along the
  edges' sources, a scaling by the edge norms, a scatter-add at the edges' targets) are the SAME host operations in
  both programs applied to equal arrays, so they are never opened; a second region, again ten row blocks, computes
  gcn, the two gate products and the gating, operation by operation what the reference computes on whole arrays —
  its one logistic operation is the reference's quotient 1 / (1 + exp (−t)) on every extended real.  No law beyond
  reading each operation at an index is used, and the precondition (finite inputs) is never opened.
-/
import proofs.«113602_j18159121727862_1_alg».proof.Defs
import proofs.«113602_j18159121727862_1_alg».proof.Proof.Gen.Kernel
import proofs.«113602_j18159121727862_1_alg».proof.Proof.Gen.Kernel.Frame
import proofs.«113602_j18159121727862_1_alg».proof.Proof.Gen.KernelIdeal
import proofs.«113602_j18159121727862_1_alg».proof.Proof.Gen.KernelIdeal.Frame
import proofs.«113602_j18159121727862_1_alg».proof.Proof.Gen.ReferenceIdeal
import proofs.«113602_j18159121727862_1_alg».proof.Proof.Gen.ReferenceIdeal.Run
import proofs.«113602_j18159121727862_1_alg».proof.Proof.Gen.ReferenceIdeal.Read
import proofs.«113602_j18159121727862_1_alg».proof.Proof.Gen.Pre_finite_inputs
import proofs.«113602_j18159121727862_1_alg».proof.Proof.KernelRun
import proofs.«113602_j18159121727862_1_alg».proof.Proof.KernelHost
import proofs.«113602_j18159121727862_1_alg».proof.Proof.CellValue

set_option maxRecDepth 16384

noncomputable section

namespace Cert.Proof

open Idealize.ShloMosaic Idealize.ShloMosaic.TcCoe Idealize.SL.Sem

/-- The idealized kernel's result array is the reference's function of the arguments: the second region's write-backs
    leave the recurrent cell of what the host operations and the first region left, and those are the
    reference's own stages. -/
theorem result_eq (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    Cert.KernelIdeal.Gen.W4 m ρ c (Proc.devRef .tc Cert.KernelIdeal.main_v47)
      = Cert.ReferenceIdeal.Read.val_main_v86 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) :=
  (Cert.KernelIdeal.Gen.W4_arr m ρ c 9).trans
    (Cert.KernelIdeal.CellValue.final (Cert.KernelIdeal.Gen.V3 m ρ) c _ _ _ _ _ _ _ _ _ _
      (Cert.KernelIdeal.HostVals.W3_v40 m ρ c) (Cert.KernelIdeal.HostVals.W3_v11 m ρ c) (Cert.KernelIdeal.HostVals.W3_v41 m ρ c) (Cert.KernelIdeal.HostVals.W3_v42 m ρ c)
      (Cert.KernelIdeal.HostVals.W3_arg9 m ρ c) (Cert.KernelIdeal.HostVals.W3_v43 m ρ c) (Cert.KernelIdeal.HostVals.W3_v44 m ρ c) (Cert.KernelIdeal.HostVals.W3_v45 m ρ c)
      (Cert.KernelIdeal.HostVals.W3_v46 m ρ c))

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealization is the kernel's own text read on the extended reals. -/
theorem preserves : Cert.preserves_Kernel_KernelIdeal := trivial

/-- Both idealized programs end with the reference's function of the (agreeing) arguments in their result arrays. -/
theorem algebraic : Cert.algebraic_KernelIdeal_ReferenceIdeal := by
  intro m ρ m' ρ' _ hagree
  refine ⟨fun c => Cert.ReferenceIdeal.Read.val_main_v86 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono (fun r h c => ⟨(h c).1.trans (result_eq m ρ c), (h c).2⟩)
      (Cert.KernelIdeal.Named.run (F := Ideal) m ρ)
  · refine (θ_run Cert.ReferenceIdeal.defs _ _).mono (fun _ h c => ⟨(h c).1.trans ?_, (h c).2⟩) (Cert.ReferenceIdeal.Value.run (F := Ideal) m' ρ')
    rw [Cert.ReferenceIdeal.Read.val_main_v86_eq]
    obtain ⟨e0, e1, e2, e3, e4, e5, e6, e7, e8, e9⟩ := hagree c
    rw [e0, e1, e2, e3, e4, e5, e6, e7, e8, e9]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
